-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S100000x256 : Shape := ⟨2, ![100000, 256]⟩
abbrev S256 : Shape := ⟨1, ![256]⟩
abbrev S100000 : Shape := ⟨1, ![100000]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x256 .f32) (main_arg1 : FVec F S100000x256 .f32) (main_arg2 : IVec S256 32) (main_arg3 : IVec S256 32) (main_arg4 : IVec S100000 32) (main_arg5 : IVec S100000 32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 0#32
  let main_v13 : IVec S256 32 := broadcastInDim S256 ![] bcast_S_S256 main_c_4
  let main_v14 : IVec S256 1 := cmpi .sge main_arg3 main_v13
  let main_c_5 : IVec S_ 1 := constantI S_ 1 1#1
  let main_v15 : IVec S_ 1 := (fun x v => Host.reduce IntOp.andi x v reducesTo_S256_S_d0 h_S_) main_v14 main_c_5
  fn_part1 (F := F) main_v12 main_v15
-- ==== Kernel.lean ====
abbrev S256x256 : Shape := ⟨2, ![256, 256]⟩
abbrev S100000x256 : Shape := ⟨2, ![100000, 256]⟩
abbrev S256 : Shape := ⟨1, ![256]⟩
abbrev S100000 : Shape := ⟨1, ![100000]⟩
abbrev S_ : Shape := ⟨0, ![]⟩
abbrev S256x1 : Shape := ⟨2, ![256, 1]⟩
abbrev S100352x256 : Shape := ⟨2, ![100352, 256]⟩
abbrev S1x100000 : Shape := ⟨2, ![1, 100000]⟩
abbrev S1x100352 : Shape := ⟨2, ![1, 100352]⟩
abbrev S1x1 : Shape := ⟨2, ![1, 1]⟩
abbrev S2048x256 : Shape := ⟨2, ![2048, 256]⟩
abbrev S1x2048 : Shape := ⟨2, ![1, 2048]⟩
abbrev S256x2048 : Shape := ⟨2, ![256, 2048]⟩
abbrev S1 : Shape := ⟨1, ![1]⟩

abbrev nBuf : Space → Nat
  | .hbm => 31
  | .vmem => 12
  | .smem => 0
  | _ => 0

abbrev bufTy : (tb : Table) → Fin (tcTables nBuf tb) → BufTy
  | .hbm, ⟨0, _⟩ => ⟨S256x256, .f32⟩
  | .hbm, ⟨1, _⟩ => ⟨S100000x256, .f32⟩
  | .hbm, ⟨2, _⟩ => ⟨S256, .i32⟩
  | .hbm, ⟨3, _⟩ => ⟨S256, .i32⟩
  | .hbm, ⟨4, _⟩ => ⟨S100000, .i32⟩
  | .hbm, ⟨5, _⟩ => ⟨S100000, .i32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x256, .f32⟩
  | .hbm, ⟨15, _⟩ => ⟨S256x256, .f32⟩
  | .hbm, ⟨16, _⟩ => ⟨S_, .i32⟩
  | .hbm, ⟨17, _⟩ => ⟨S_, .f32⟩
  | .hbm, ⟨18, _⟩ => ⟨S100352x256, .f32⟩
  | .hbm, ⟨19, _⟩ => ⟨S1x100000, .i32⟩
  | .hbm, ⟨20, _⟩ => ⟨S1x100000, .i32⟩
  | .hbm, ⟨21, _⟩ => ⟨S_, .i32⟩
  | .hbm, ⟨22, _⟩ => ⟨S_, .i32⟩
  | .hbm, ⟨23, _⟩ => ⟨S1x100352, .i32⟩
  | .hbm, ⟨24, _⟩ => ⟨S_, .i32⟩
  | .hbm, ⟨25, _⟩ => ⟨S_, .i32⟩
  | .hbm, ⟨26, _⟩ => ⟨S1x100352, .i32⟩
  | .hbm, ⟨27, _⟩ => ⟨S256x1, .i32⟩
  | .hbm, ⟨28, _⟩ => ⟨S256x1, .i32⟩
  | .hbm, ⟨29, _⟩ => ⟨S1x1, .f32⟩
  | .hbm, ⟨30, _⟩ => ⟨S_, .f32⟩
  | .local _ .vmem, ⟨0, _⟩ => ⟨S256x256, .f32⟩
  | .local _ .vmem, ⟨1, _⟩ => ⟨S256x1, .i32⟩
  | .local _ .vmem, ⟨2, _⟩ => ⟨S256x1, .i32⟩
  | .local _ .vmem, ⟨3, _⟩ => ⟨S2048x256, .f32⟩
  | .local _ .vmem, ⟨4, _⟩ => ⟨S2048x256, .f32⟩
  | .local _ .vmem, ⟨5, _⟩ => ⟨S1x2048, .i32⟩
  | .local _ .vmem, ⟨6, _⟩ => ⟨S1x2048, .i32⟩
  | .local _ .vmem, ⟨7, _⟩ => ⟨S1x2048, .i32⟩
  | .local _ .vmem, ⟨8, _⟩ => ⟨S1x2048, .i32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call2_v0 : Ref sig .tc := ⟨.hbm, 22, rfl⟩
abbrev main_v8 : Ref sig .tc := ⟨.hbm, 23, rfl⟩
abbrev main_c_1 : Ref sig .tc := ⟨.hbm, 24, rfl⟩
abbrev main_call3_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v70 : BitVec 1 := Scalar.cmpi .eq arg0 c48_i32
  let v71 : BitVec 32 := Scalar.extui v70
  let c0_i32_36 : BitVec 32 := 0#32
  let v72 : BitVec 1 := Scalar.cmpi .ne v71 c0_i32_36
  v72

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  pads_S100000x256_S100352x256_03520_000 : S100000x256.Pads (![0, 0] : Fin 2 → Nat) ![352, 0] ![0, 0] S100352x256
  shapeCasts_S100000_S1x100000 : S100000.ShapeCasts S1x100000
  pads_S1x100000_S1x100352_000_03520 : S1x100000.Pads (![0, 0] : Fin 2 → Nat) ![0, 352] ![0, 0] S1x100352
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  broadcasts_S256x1_S256x2048 : S256x1.Broadcasts S256x2048
  reduces_S256x2048_S256 : S256x2048.Reduces [1] S256
  reduces_S256x1_S1 : S256x1.Reduces [0] S1
  shapeCasts_S1_S1x1 : S1.ShapeCasts S1x1
  shapeCasts_S1x1_S_ : S1x1.ShapeCasts S_
  dot_S256x256_S2048x256_S256x2048_1_1_0_0_n_n_wf : DotDims.WF S256x256 S2048x256 S256x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .i32 = 32 ∨ (Rect.block (s := S256x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .i32 = 32 ∨ (Rect.block (s := S256x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S100352x256.size a
  hwx0_3 : ∀ i : grid0.Coords, EltTy.bits .f32 = 32 ∨ (Rect.block (s := S100352x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x100352.size a
  hwx0_4 : ∀ i : grid0.Coords, EltTy.bits .i32 = 32 ∨ (Rect.block (s := S1x100352) S1x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x100352.size a
  hwx0_5 : ∀ i : grid0.Coords, EltTy.bits .i32 = 32 ∨ (Rect.block (s := S1x100352) S1x2048.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf

abbrev win0_0 : Pipeline.Window sig grid0 :=
  Pipeline.Window.ofSpec (Memref.whole main_v4) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S256x256 : Shape := ⟨2, ![256, 256]⟩
abbrev S100000x256 : Shape := ⟨2, ![100000, 256]⟩
abbrev S256 : Shape := ⟨1, ![256]⟩
abbrev S100000 : Shape := ⟨1, ![100000]⟩
abbrev S_ : Shape := ⟨0, ![]⟩
abbrev S256x1 : Shape := ⟨2, ![256, 1]⟩
abbrev S256x100000 : Shape := ⟨2, ![256, 100000]⟩
abbrev S1x100000 : Shape := ⟨2, ![1, 100000]⟩

abbrev nBuf : Space → Nat
  | .hbm => 73
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S100000x256, .f32⟩
  | .hbm, ⟨2, _⟩ => ⟨S256, .i32⟩
  | .hbm, ⟨3, _⟩ => ⟨S256, .i32⟩
  | .hbm, ⟨4, _⟩ => ⟨S100000, .i32⟩
  | .hbm, ⟨5, _⟩ => ⟨S100000, .i32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x256, .f32⟩
  | .hbm, ⟨15, _⟩ => ⟨S256x256, .f32⟩
  | .hbm, ⟨16, _⟩ => ⟨S256x100000, .f32⟩
  | .hbm, ⟨17, _⟩ => ⟨S256x100000, .f32⟩
  | .hbm, ⟨18, _⟩ => ⟨S_, .f32⟩
  | .hbm, ⟨19, _⟩ => ⟨S256x100000, .f32⟩
  | .hbm, ⟨20, _⟩ => ⟨S256x100000, .f32⟩
  | .hbm, ⟨21, _⟩ => ⟨S_, .f32⟩
  | .hbm, ⟨22, _⟩ => ⟨S256x100000, .f32⟩
  | .hbm, ⟨23, _⟩ => ⟨S256x100000, .f32⟩
  | .hbm, ⟨24, _⟩ => ⟨S1x100000, .i32⟩
  | .hbm, ⟨25, _⟩ => ⟨S256x1, .i32⟩
  | .hbm, ⟨26, _⟩ => ⟨S256x100000, .i32⟩
  | .hbm, ⟨27, _⟩ => ⟨S256x100000, .i32⟩
  | .hbm, ⟨28, _⟩ => ⟨S256x100000, .i1⟩
  | .hbm, ⟨29, _⟩ => ⟨S256x100000, .i1⟩
  | .hbm, ⟨30, _⟩ => ⟨S1x100000, .i32⟩
  | .hbm, ⟨31, _⟩ => ⟨S256x1, .i32⟩
  | .hbm, ⟨32, _⟩ => ⟨S256x100000, .i32⟩
  | .hbm, ⟨33, _⟩ => ⟨S256x100000, .i32⟩
  | .hbm, ⟨34, _⟩ => ⟨S256x100000, .i1⟩
  | .hbm, ⟨35, _⟩ => ⟨S256x100000, .i1⟩
  | .hbm, ⟨36, _⟩ => ⟨S_, .f32⟩
  | .hbm, ⟨37, _⟩ => ⟨S256x100000, .f32⟩
  | .hbm, ⟨38, _⟩ => ⟨S256x100000, .f32⟩
  | .hbm, ⟨39, _⟩ => ⟨S_, .f32⟩
  | .hbm, ⟨40, _⟩ => ⟨S256x100000, .f32⟩
  | .hbm, ⟨41, _⟩ => ⟨S256x100000, .f32⟩
  | .hbm, ⟨42, _⟩ => ⟨S_, .f32⟩
  | .hbm, ⟨43, _⟩ => ⟨S256x100000, .f32⟩
  | .hbm, ⟨44, _⟩ => ⟨S256x100000, .f32⟩
  | .hbm, ⟨45, _⟩ => ⟨S256x100000, .f32⟩
  | .hbm, ⟨46, _⟩ => ⟨S_, .f32⟩
  | .hbm, ⟨47, _⟩ => ⟨S256x100000, .f32⟩
  | .hbm, ⟨48, _⟩ => ⟨S256x100000, .f32⟩
  | .hbm, ⟨49, _⟩ => ⟨S256x100000, .f32⟩
  | .hbm, ⟨50, _⟩ => ⟨S_, .f32⟩
  | .hbm, ⟨51, _⟩ => ⟨S256x100000, .f32⟩
  | .hbm, ⟨52, _⟩ => ⟨S256x100000, .f32⟩
  | .hbm, ⟨53, _⟩ => ⟨S256x100000, .f32⟩
  | .hbm, ⟨54, _⟩ => ⟨S_, .f32⟩
  | .hbm, ⟨55, _⟩ => ⟨S_, .f32⟩
  | .hbm, ⟨56, _⟩ => ⟨S256x100000, .f32⟩
  | .hbm, ⟨57, _⟩ => ⟨S256x100000, .f32⟩
  | .hbm, ⟨58, _⟩ => ⟨S_, .f32⟩
  | .hbm, ⟨59, _⟩ => ⟨S_, .f32⟩
  | .hbm, ⟨60, _⟩ => ⟨S256x100000, .f32⟩
  | .hbm, ⟨61, _⟩ => ⟨S_, .f32⟩
  | .hbm, ⟨62, _⟩ => ⟨S256x100000, .f32⟩
  | .hbm, ⟨63, _⟩ => ⟨S256x100000, .f32⟩
  | .hbm, ⟨64, _⟩ => ⟨S256x100000, .f32⟩
  | .hbm, ⟨65, _⟩ => ⟨S_, .f32⟩
  | .hbm, ⟨66, _⟩ => ⟨S_, .f32⟩
  | .hbm, ⟨67, _⟩ => ⟨S256x100000, .f32⟩
  | .hbm, ⟨68, _⟩ => ⟨S256x100000, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v42 : Ref sig .tc := ⟨.hbm, 68, rfl⟩
abbrev main_cst_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  transposes_S100000x256_S256x100000_1_0 : S100000x256.Transposes [1, 0] S256x100000
  bcast_S_S256x100000 : S_.BroadcastsInDim S256x100000 (![] : Fin 0 → Fin S256x100000.rank)
  bcast_S100000_S1x100000_1 : S100000.BroadcastsInDim S1x100000 (![1] : Fin 1 → Fin S1x100000.rank)
  bcast_S1x100000_S256x100000_0_1 : S1x100000.BroadcastsInDim S256x100000 (![0, 1] : Fin 2 → Fin S256x100000.rank)
  bcast_S256x1_S256x100000_0_1 : S256x1.BroadcastsInDim S256x100000 (![0, 1] : Fin 2 → Fin S256x100000.rank)
  reducesTo_S256x100000_S_d0_1 : S256x100000.ReducesTo [0, 1] S_
  dot_S256x256_S256x100000_S256x100000_1_0_0_1_n_n_wf : DotDims.WF S256x256 S256x100000 S256x100000 [1] [0] [0] [1] [] []

variable [Facts₀]

def dot_S256x256_S256x100000_S256x100000_1_0_0_1_n_n : DotDims S256x256 S256x100000 S256x100000 where
  lhsContracting := [1]
  rhsContracting := [0]
  lhsNonContracting := [0]
  rhsNonContracting := [1]
  lhsBatch := []
  rhsBatch := []
  wf := dot_S256x256_S256x100000_S256x100000_1_0_0_1_n_n_wf

class Facts : Prop extends Facts₀ where

variable [Facts]
-- ==== Proof.Labels.lean ====
/-
  What the precondition says of the labels. The precondition's last two conjuncts state that every target and every
  camera id of the 256 rows is nonnegative as a signed word; the word 0xFFFFFFFF reads −1, so no row carries it.
  (The padded bank entries carry exactly that word, so they match no row.)
-/
import proofs.«146163_j42640435314783_1_alg».proof.Pre_finite_inputs
import Idealize.ShloMosaic.Lib.ReduceAll
import Idealize.ShloMosaic.Lib.ValueIdx

noncomputable section

namespace Cert.Labels

open Idealize.ShloMosaic Idealize.ShloMosaic.ValueIdx

/-- The shape of a scalar has one index. -/
instance : Subsingleton Cert.Pre_finite_inputs.S_.Idx := ⟨fun a b => funext fun d => d.elim0⟩

/-- A word that tests nonnegative (signed) is not the word of −1. -/
theorem ne_neg_one_of_sge (v : BitVec 32) (h : IntOp.cmpi .sge v 0#32 = 1#1) : v ≠ 4294967295#32 := by
  intro e
  subst e
  revert h
  decide

variable [Cert.Pre_finite_inputs.Facts]

/-- Under the precondition no target and no camera id is −1. -/
theorem labels_of_pre (a0 : FVec Ideal Cert.Pre_finite_inputs.S256x256 .f32) (a1 : FVec Ideal Cert.Pre_finite_inputs.S100000x256 .f32)
    (a2 a3 : IVec Cert.Pre_finite_inputs.S256 32) (a4 a5 : IVec Cert.Pre_finite_inputs.S100000 32)
    (h : Cert.Pre_finite_inputs.fn (F := Ideal) a0 a1 a2 a3 a4 a5 = fun _ => 1#1) :
    ∀ b : Fin 256, a2 (ValueIdx.ix1 b) ≠ 4294967295#32 ∧ a3 (ValueIdx.ix1 b) ≠ 4294967295#32 := by
  have h0 := congrFun h ValueIdx.ix0
  dsimp only [Cert.Pre_finite_inputs.fn, Cert.Pre_finite_inputs.fn_part1, andi] at h0
  obtain ⟨h12, h15⟩ := IntOp.andi_eq_one.1 h0
  obtain ⟨-, h11⟩ := IntOp.andi_eq_one.1 h12
  intro b
  have t := Host.reduce_andi_all _ _ _ _ _ h11 (ValueIdx.ix1 b)
  have c := Host.reduce_andi_all _ _ _ _ _ h15 (ValueIdx.ix1 b)
  exact ⟨ne_neg_one_of_sge _ t, ne_neg_one_of_sge _ c⟩

end Cert.Labels

end
-- ==== Proof.Pieces.lean ====
import proofs.«146163_j42640435314783_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
  What the kernel's body leaves behind at one grid point, case by case, as the body's own arithmetic.

  The body keeps two 1×1 accumulators (the positive and the negative total so far). At the first point it clears
  both and adds this tile's two sums; at every later point it adds this tile's two sums to what the point before
  left; at the last point it moreover stores log (1 + P · N) of the two accumulators, as just updated, into the
  1×1 output block. Each lemma reads one of those final contents back as the body's pure term of the point's
  input blocks (and, after the first point, of the accumulators' previous contents).
-/
namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point, positive accumulator: this tile's positive sum added to the cleared accumulator. -/
theorem first_pos (c : Dev nD) (i : grid0.Coords) (arg1 : Memref sig .tc .vmem S256x256 .f32) (harg1 : arg1.IsWhole) (arg2 : Memref sig .tc .vmem S256x1 .i32) (harg2 : arg2.IsWhole) (arg3 : Memref sig .tc .vmem S256x1 .i32) (harg3 : arg3.IsWhole) (arg4 : Memref sig .tc .vmem S2048x256 .f32) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S256x256 .f32) (x1 : Vec F S256x1 .i32) (x2 : Vec F S256x1 .i32) (x3 : Vec F S2048x256 .f32) (x4 : Vec F S1x2048 .i32) (x5 : Vec F S1x2048 .i32) :
    sout0_A_0 c i arg1 harg1 arg2 harg2 arg3 harg3 arg4 harg4 arg5 harg5 arg6 harg6 arg7 harg7 arg8 harg8 arg9 harg9 hc0 hc1 x0 x1 x2 x3 x4 x5 = k0_pay8 (k0_pay3 x0 x3) (k0_pay4 x1 x4) (k0_pay6 x0 x3) (Scalar.ofBits .f32 0x00000000#32) k0_pay1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg8.read_unread, harg9.read_unread, View.ld_unit_zero (S := S256x256) hz, View.ld_unit_zero (S := S256x1) hz, View.ld_unit_zero (S := S2048x256) hz, View.ld_unit_zero (S := S1x2048) hz, View.ld_unit_zero (S := S1x1) hz]

/-- First point, negative accumulator: this tile's negative sum added to the cleared accumulator. -/
theorem first_neg (c : Dev nD) (i : grid0.Coords) (arg1 : Memref sig .tc .vmem S256x256 .f32) (harg1 : arg1.IsWhole) (arg2 : Memref sig .tc .vmem S256x1 .i32) (harg2 : arg2.IsWhole) (arg3 : Memref sig .tc .vmem S256x1 .i32) (harg3 : arg3.IsWhole) (arg4 : Memref sig .tc .vmem S2048x256 .f32) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S256x256 .f32) (x1 : Vec F S256x1 .i32) (x2 : Vec F S256x1 .i32) (x3 : Vec F S2048x256 .f32) (x4 : Vec F S1x2048 .i32) (x5 : Vec F S1x2048 .i32) :
    sout0_A_1 c i arg1 harg1 arg2 harg2 arg3 harg3 arg4 harg4 arg5 harg5 arg6 harg6 arg7 harg7 arg8 harg8 arg9 harg9 hc0 hc1 x0 x1 x2 x3 x4 x5 = k0_pay9 (k0_pay3 x0 x3) (k0_pay5 x1 x2 x4 x5) (k0_pay7 x0 x3) k0_pay2 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg8.read_unread, harg9.read_unread, View.ld_unit_zero (S := S256x256) hz, View.ld_unit_zero (S := S256x1) hz, View.ld_unit_zero (S := S2048x256) hz, View.ld_unit_zero (S := S1x2048) hz, View.ld_unit_zero (S := S1x1) hz]

/-- A middle point, positive accumulator: this tile's positive sum added to the previous contents. -/
theorem mid_pos (c : Dev nD) (i : grid0.Coords) (arg1 : Memref sig .tc .vmem S256x256 .f32) (harg1 : arg1.IsWhole) (arg2 : Memref sig .tc .vmem S256x1 .i32) (harg2 : arg2.IsWhole) (arg3 : Memref sig .tc .vmem S256x1 .i32) (harg3 : arg3.IsWhole) (arg4 : Memref sig .tc .vmem S2048x256 .f32) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S256x256 .f32) (x1 : Vec F S256x1 .i32) (x2 : Vec F S256x1 .i32) (x3 : Vec F S2048x256 .f32) (x4 : Vec F S1x2048 .i32) (x5 : Vec F S1x2048 .i32) (xs0 xs1 : Vec F S1x1 .f32) :
    sout0_B_0 c i arg1 harg1 arg2 harg2 arg3 harg3 arg4 harg4 arg5 harg5 arg6 harg6 arg7 harg7 arg8 harg8 arg9 harg9 hc0 hc1 x0 x1 x2 x3 x4 x5 xs0 xs1 = k0_pay8 (k0_pay3 x0 x3) (k0_pay4 x1 x4) (k0_pay6 x0 x3) (Scalar.ofBits .f32 0x00000000#32) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S256x256) hz, View.ld_unit_zero (S := S256x1) hz, View.ld_unit_zero (S := S2048x256) hz, View.ld_unit_zero (S := S1x2048) hz, View.ld_unit_zero (S := S1x1) hz]

/-- A middle point, negative accumulator: this tile's negative sum added to the previous contents. -/
theorem mid_neg (c : Dev nD) (i : grid0.Coords) (arg1 : Memref sig .tc .vmem S256x256 .f32) (harg1 : arg1.IsWhole) (arg2 : Memref sig .tc .vmem S256x1 .i32) (harg2 : arg2.IsWhole) (arg3 : Memref sig .tc .vmem S256x1 .i32) (harg3 : arg3.IsWhole) (arg4 : Memref sig .tc .vmem S2048x256 .f32) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S256x256 .f32) (x1 : Vec F S256x1 .i32) (x2 : Vec F S256x1 .i32) (x3 : Vec F S2048x256 .f32) (x4 : Vec F S1x2048 .i32) (x5 : Vec F S1x2048 .i32) (xs0 xs1 : Vec F S1x1 .f32) :
    sout0_B_1 c i arg1 harg1 arg2 harg2 arg3 harg3 arg4 harg4 arg5 harg5 arg6 harg6 arg7 harg7 arg8 harg8 arg9 harg9 hc0 hc1 x0 x1 x2 x3 x4 x5 xs0 xs1 = k0_pay9 (k0_pay3 x0 x3) (k0_pay5 x1 x2 x4 x5) (k0_pay7 x0 x3) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S256x256) hz, View.ld_unit_zero (S := S256x1) hz, View.ld_unit_zero (S := S2048x256) hz, View.ld_unit_zero (S := S1x2048) hz, View.ld_unit_zero (S := S1x1) hz]

/-- The last point, positive accumulator: as at a middle point. -/
theorem last_pos (c : Dev nD) (i : grid0.Coords) (arg1 : Memref sig .tc .vmem S256x256 .f32) (harg1 : arg1.IsWhole) (arg2 : Memref sig .tc .vmem S256x1 .i32) (harg2 : arg2.IsWhole) (arg3 : Memref sig .tc .vmem S256x1 .i32) (harg3 : arg3.IsWhole) (arg4 : Memref sig .tc .vmem S2048x256 .f32) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S256x256 .f32) (x1 : Vec F S256x1 .i32) (x2 : Vec F S256x1 .i32) (x3 : Vec F S2048x256 .f32) (x4 : Vec F S1x2048 .i32) (x5 : Vec F S1x2048 .i32) (xs0 xs1 : Vec F S1x1 .f32) :
    sout0_C_0 c i arg1 harg1 arg2 harg2 arg3 harg3 arg4 harg4 arg5 harg5 arg6 harg6 arg7 harg7 arg8 harg8 arg9 harg9 hc0 hc1 x0 x1 x2 x3 x4 x5 xs0 xs1 = k0_pay8 (k0_pay3 x0 x3) (k0_pay4 x1 x4) (k0_pay6 x0 x3) (Scalar.ofBits .f32 0x00000000#32) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S256x256) hz, View.ld_unit_zero (S := S256x1) hz, View.ld_unit_zero (S := S2048x256) hz, View.ld_unit_zero (S := S1x2048) hz, View.ld_unit_zero (S := S1x1) hz]

/-- The last point, negative accumulator: as at a middle point. -/
theorem last_neg (c : Dev nD) (i : grid0.Coords) (arg1 : Memref sig .tc .vmem S256x256 .f32) (harg1 : arg1.IsWhole) (arg2 : Memref sig .tc .vmem S256x1 .i32) (harg2 : arg2.IsWhole) (arg3 : Memref sig .tc .vmem S256x1 .i32) (harg3 : arg3.IsWhole) (arg4 : Memref sig .tc .vmem S2048x256 .f32) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S256x256 .f32) (x1 : Vec F S256x1 .i32) (x2 : Vec F S256x1 .i32) (x3 : Vec F S2048x256 .f32) (x4 : Vec F S1x2048 .i32) (x5 : Vec F S1x2048 .i32) (xs0 xs1 : Vec F S1x1 .f32) :
    sout0_C_1 c i arg1 harg1 arg2 harg2 arg3 harg3 arg4 harg4 arg5 harg5 arg6 harg6 arg7 harg7 arg8 harg8 arg9 harg9 hc0 hc1 x0 x1 x2 x3 x4 x5 xs0 xs1 = k0_pay9 (k0_pay3 x0 x3) (k0_pay5 x1 x2 x4 x5) (k0_pay7 x0 x3) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S256x256) hz, View.ld_unit_zero (S := S256x1) hz, View.ld_unit_zero (S := S2048x256) hz, View.ld_unit_zero (S := S1x2048) hz, View.ld_unit_zero (S := S1x1) hz]

/-- The last point, the output block: log (1 + P · N) of the two accumulators as the point has just updated them. -/
theorem last_out (c : Dev nD) (i : grid0.Coords) (arg1 : Memref sig .tc .vmem S256x256 .f32) (harg1 : arg1.IsWhole) (arg2 : Memref sig .tc .vmem S256x1 .i32) (harg2 : arg2.IsWhole) (arg3 : Memref sig .tc .vmem S256x1 .i32) (harg3 : arg3.IsWhole) (arg4 : Memref sig .tc .vmem S2048x256 .f32) (harg4 : arg4.IsWhole) (arg5 : Memref sig .tc .vmem S1x2048 .i32) (harg5 : arg5.IsWhole) (arg6 : Memref sig .tc .vmem S1x2048 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S256x256 .f32) (x1 : Vec F S256x1 .i32) (x2 : Vec F S256x1 .i32) (x3 : Vec F S2048x256 .f32) (x4 : Vec F S1x2048 .i32) (x5 : Vec F S1x2048 .i32) (xs0 xs1 : Vec F S1x1 .f32) :
    out0_C_6 c i arg1 harg1 arg2 harg2 arg3 harg3 arg4 harg4 arg5 harg5 arg6 harg6 arg7 harg7 arg8 harg8 arg9 harg9 hc0 hc1 x0 x1 x2 x3 x4 x5 xs0 xs1 = k0_pay10 (k0_pay8 (k0_pay3 x0 x3) (k0_pay4 x1 x4) (k0_pay6 x0 x3) (Scalar.ofBits .f32 0x00000000#32) xs0) (k0_pay9 (k0_pay3 x0 x3) (k0_pay5 x1 x2 x4 x5) (k0_pay7 x0 x3) xs1) := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0 xs1)]
  unfold kernelRun0_C
  dsimp only
  sl_unfold_words
  rw [View.canon_unit_zero hz, View.readCov_unit_zero (S := S1x1) _ hz, View.readCov_unit_zero (S := S1x1) _ hz]
  simp only [View.readAt_eq_ld, harg1.read_unread, harg2.read_unread, harg3.read_unread, harg4.read_unread, harg5.read_unread, harg6.read_unread, harg8.read_unread, harg9.read_unread, View.ld_unit_zero (S := S256x256) hz, View.ld_unit_zero (S := S256x1) hz, View.ld_unit_zero (S := S2048x256) hz, View.ld_unit_zero (S := S1x2048) hz, View.ld_unit_zero (S := S1x1) hz]

end Cert.KernelIdeal.Pieces

end
-- ==== Proof.Spec.lean ====
/-
  The loss as ONE function of the arrays, on the extended reals.

  With `x` the row-normalised inputs (256 × 256), `f` the memory bank (100000 × 256), `tg`, `cam` the labels and
  camera ids of the 256 rows and `pid`, `cid` those of the 100000 bank entries:

    sim b n  = ∑ d, x b d · f n d                                 (similarity of row b with entry n)
    o        = (sim + 1) · ½                                      (mapped from [-1, 1] to [0, 1])
    wPos o   = exp ((0 − max (1 − o) 0) · (o − 1) / T)            (weight of a positive pair)
    wNeg o   = exp (max o 0 · o / T)                              (weight of a camera-negative pair)
    P        = ∑ b n, [pid n = tg b] · wPos o
    N        = ∑ b n, [pid n ≠ tg b ∧ cid n = cam b] · wNeg o
    loss     = log (1 + P · N).

  Every literal is kept as the f32 word the two programs print; the same word on both sides is never evaluated.
-/
import Idealize.ShloMosaic.PureOps.Ideal
import Idealize.ShloMosaic.Lib.ValueIdx

noncomputable section

namespace Cert.Spec

open Idealize.ShloMosaic Idealize.ShloMosaic.ValueIdx

abbrev SX : Shape := ⟨2, ![256, 256]⟩
abbrev SF : Shape := ⟨2, ![100000, 256]⟩
abbrev SB : Shape := ⟨1, ![256]⟩
abbrev SN : Shape := ⟨1, ![100000]⟩

/-- The similarity, mapped from [-1, 1] to [0, 1]. -/
def unit (s : EReal) : EReal := (s + Ideal.ofBits .f32 0x3F800000#32) * Ideal.ofBits .f32 0x3F000000#32

/-- The weight of a positive pair at mapped similarity `o`. -/
def wPos (o : EReal) : EReal :=
  Ideal.exp (Ideal.div ((Ideal.ofBits .f32 0x00000000#32 - max (Ideal.ofBits .f32 0x3F800000#32 - o) (Ideal.ofBits .f32 0x00000000#32))
    * (o - Ideal.ofBits .f32 0x3F800000#32)) (Ideal.ofBits .f32 0x3D4CCCCD#32))

/-- The weight of a camera-negative pair at mapped similarity `o`. -/
def wNeg (o : EReal) : EReal :=
  Ideal.exp (Ideal.div (max o (Ideal.ofBits .f32 0x00000000#32) * o) (Ideal.ofBits .f32 0x3D4CCCCD#32))

/-- The similarity of row `b` with bank entry `n`: the contraction over the 256 features. -/
def sim (x : SX.Idx → EReal) (f : SF.Idx → EReal) (b : Fin 256) (n : Fin 100000) : EReal :=
  ∑ d : Fin 256, x (ix2 b d) * f (ix2 n d)

/-- Entry `n` carries row `b`'s label. -/
def posMask (tg : SB.Idx → BitVec 32) (pid : SN.Idx → BitVec 32) (b : Fin 256) (n : Fin 100000) : BitVec 1 :=
  IntOp.cmpi .eq (pid (ix1 n)) (tg (ix1 b))

/-- Entry `n` carries another label than row `b`'s, and row `b`'s camera. -/
def negMask (tg cam : SB.Idx → BitVec 32) (pid cid : SN.Idx → BitVec 32) (b : Fin 256) (n : Fin 100000) : BitVec 1 :=
  IntOp.andi (~~~ posMask tg pid b n) (IntOp.cmpi .eq (cid (ix1 n)) (cam (ix1 b)))

/-- The pair (b, n)'s term of the positive sum. -/
def posTerm (x : SX.Idx → EReal) (f : SF.Idx → EReal) (tg : SB.Idx → BitVec 32) (pid : SN.Idx → BitVec 32)
    (b : Fin 256) (n : Fin 100000) : EReal :=
  Scalar.select (posMask tg pid b n) (wPos (unit (sim x f b n))) 0

/-- The pair (b, n)'s term of the negative sum. -/
def negTerm (x : SX.Idx → EReal) (f : SF.Idx → EReal) (tg cam : SB.Idx → BitVec 32) (pid cid : SN.Idx → BitVec 32)
    (b : Fin 256) (n : Fin 100000) : EReal :=
  Scalar.select (negMask tg cam pid cid b n) (wNeg (unit (sim x f b n))) 0

/-- The positive sum over all pairs. -/
def posSum (x : SX.Idx → EReal) (f : SF.Idx → EReal) (tg : SB.Idx → BitVec 32) (pid : SN.Idx → BitVec 32) : EReal :=
  ∑ b : Fin 256, ∑ n : Fin 100000, posTerm x f tg pid b n

/-- The negative sum over all pairs. -/
def negSum (x : SX.Idx → EReal) (f : SF.Idx → EReal) (tg cam : SB.Idx → BitVec 32) (pid cid : SN.Idx → BitVec 32) : EReal :=
  ∑ b : Fin 256, ∑ n : Fin 100000, negTerm x f tg cam pid cid b n

/-- The loss. -/
def loss (x : SX.Idx → EReal) (f : SF.Idx → EReal) (tg cam : SB.Idx → BitVec 32) (pid cid : SN.Idx → BitVec 32) : EReal :=
  Ideal.log1p (posSum x f tg pid * negSum x f tg cam pid cid)

end Cert.Spec

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.TileTerms.lean ====
import proofs.«146163_j42640435314783_1_alg».proof.Proof.Gen.KernelIdeal.Skeleton
import proofs.«146163_j42640435314783_1_alg».proof.Proof.Spec
import proofs.«146163_j42640435314783_1_alg».proof.Proof.LibKeepdims
import proofs.«146163_j42640435314783_1_alg».proof.Proof.LibBroadcastTo
import Idealize.ShloMosaic.PureOps.Ideal.Laws
import Idealize.ShloMosaic.Lib.ValueIdx
import Idealize.ShloMosaic.Lib.Pipeline.Value
import Idealize.ShloMosaic.Lib.KernelVsHost

/-!
  The body's arithmetic at one grid point, read at an index, on the extended reals.

  With `x` the 256 × 256 block of normalised rows, `f` the point's 2048 × 256 tile of the (padded) bank, `tg`, `cam`
  the label and camera columns (256 × 1) and `pid`, `cid` the tile's label and camera rows (1 × 2048):

    • the mapped similarity of row b with the tile's entry j is (∑ d, x b d · f j d + 1) · ½ — the matrix product
      contracts the feature axis of both operands, and the change of float format before it is the identity;
    • the positive mask at (b, j) compares pid j with tg b, the negative mask is its complement and cid j = cam b;
    • each accumulator's new value is its old value plus the tile's total: the lane sum of every row of the masked
      weights, then the sum of the 256 row sums (both from a zero that disappears).
-/

noncomputable section

namespace Cert.KernelIdeal.TileTerms

open Cert.KernelIdeal Cert.KernelIdeal.Gen Idealize.ShloMosaic Idealize.ShloMosaic.ValueIdx

/-- The product's operand indices at output index `i` and contraction position `q`: row `i 0` and feature `q` on the
    left, row `i 1` and feature `q` on the right (both operands are contracted along their second axis). -/
theorem lhs_row (i : S256x2048.Idx) (q : dot_S256x256_S2048x256_S256x2048_1_1_0_0_n_n.contr.Idx) : (dot_S256x256_S2048x256_S256x2048_1_1_0_0_n_n.lhsIdx i q 0).val = (i 0).val := by
  unfold DotDims.lhsIdx
  rw [dif_neg (show ¬(0 : Fin S256x256.rank) ∈ dot_S256x256_S2048x256_S256x2048_1_1_0_0_n_n.lhsBatch by decide), dif_pos (show (0 : Fin S256x256.rank) ∈ dot_S256x256_S2048x256_S256x2048_1_1_0_0_n_n.lhsNonContracting by decide)]
  rfl
theorem lhs_feature (i : S256x2048.Idx) (q : dot_S256x256_S2048x256_S256x2048_1_1_0_0_n_n.contr.Idx) : (dot_S256x256_S2048x256_S256x2048_1_1_0_0_n_n.lhsIdx i q 1).val = (q ⟨0, by decide⟩).val :=
  dot_S256x256_S2048x256_S256x2048_1_1_0_0_n_n.lhsIdx_val_of_single rfl i q
theorem rhs_row (i : S256x2048.Idx) (q : dot_S256x256_S2048x256_S256x2048_1_1_0_0_n_n.contr.Idx) : (dot_S256x256_S2048x256_S256x2048_1_1_0_0_n_n.rhsIdx i q 0).val = (i 1).val := by
  unfold DotDims.rhsIdx
  rw [dif_neg (show ¬(0 : Fin S2048x256.rank) ∈ dot_S256x256_S2048x256_S256x2048_1_1_0_0_n_n.rhsBatch by decide), dif_pos (show (0 : Fin S2048x256.rank) ∈ dot_S256x256_S2048x256_S256x2048_1_1_0_0_n_n.rhsNonContracting by decide)]
  rfl
theorem rhs_feature (i : S256x2048.Idx) (q : dot_S256x256_S2048x256_S256x2048_1_1_0_0_n_n.contr.Idx) : (dot_S256x256_S2048x256_S256x2048_1_1_0_0_n_n.rhsIdx i q 1).val = (q ⟨0, by decide⟩).val :=
  dot_S256x256_S2048x256_S256x2048_1_1_0_0_n_n.rhsIdx_val_of_single rfl i q

/-- The block product at (b, j): the contraction over the 256 features of row b of the left block with row j of the
    right block. -/
theorem block_product (l : FVec Ideal S256x256 .bf16) (r : FVec Ideal S2048x256 .bf16) (b : Fin 256) (j : Fin 2048) :
    matmul dot_S256x256_S2048x256_S256x2048_1_1_0_0_n_n none l r (constant S256x2048 .f32 0x00000000#32) (ix2 b j)
      = ∑ d : Fin 256, l (ix2 b d) * r (ix2 j d) := by
  simp only [matmul]
  rw [Ideal.matmul_constant_zero_apply, ← Equiv.sum_comp (contrEquiv1 dot_S256x256_S2048x256_S256x2048_1_1_0_0_n_n 256 rfl rfl).symm]
  refine Finset.sum_congr rfl fun k _ => ?_
  have hk := contrEquiv1_symm_val dot_S256x256_S2048x256_S256x2048_1_1_0_0_n_n 256 rfl rfl k
  have el : dot_S256x256_S2048x256_S256x2048_1_1_0_0_n_n.lhsIdx (ix2 b j) ((contrEquiv1 dot_S256x256_S2048x256_S256x2048_1_1_0_0_n_n 256 rfl rfl).symm k) = ix2 b k := funext fun a => Fin.ext (by
    match a with
    | ⟨0, _⟩ => exact lhs_row _ _
    | ⟨1, _⟩ => exact (lhs_feature _ _).trans hk)
  have er : dot_S256x256_S2048x256_S256x2048_1_1_0_0_n_n.rhsIdx (ix2 b j) ((contrEquiv1 dot_S256x256_S2048x256_S256x2048_1_1_0_0_n_n 256 rfl rfl).symm k) = ix2 j k := funext fun a => Fin.ext (by
    match a with
    | ⟨0, _⟩ => exact rhs_row _ _
    | ⟨1, _⟩ => exact (rhs_feature _ _).trans hk)
  rw [el, er]

/-- The mapped similarity at (b, j). -/
theorem mapped_similarity (x : Vec Ideal S256x256 .f32) (f : Vec Ideal S2048x256 .f32) (b : Fin 256) (j : Fin 2048) :
    k0_pay3 (F := Ideal) x f (ix2 b j) = Cert.Spec.unit (∑ d : Fin 256, x (ix2 b d) * f (ix2 j d)) := by
  unfold k0_pay3 Cert.Spec.unit
  refine congrArg (fun s : EReal => (s + Ideal.ofBits .f32 0x3F800000#32) * Ideal.ofBits .f32 0x3F000000#32) ?_
  refine (block_product _ _ b j).trans ?_
  refine Finset.sum_congr rfl fun d _ => ?_
  rw [truncf_apply, truncf_apply, shapeCast_self, shapeCast_self]

/-- The positive mask at (b, j): the tile's label j against row b's label. -/
theorem pos_mask (tg : Vec Ideal S256x1 .i32) (pid : Vec Ideal S1x2048 .i32) (b : Fin 256) (j : Fin 2048) :
    k0_pay4 (F := Ideal) tg pid (ix2 b j) = IntOp.cmpi .eq (pid (ix2 0 j)) (tg (ix2 b 0)) := by
  unfold k0_pay4
  show IntOp.cmpi .eq (broadcastTo S256x2048 _ _ (ix2 b j)) (broadcastTo S256x2048 _ _ (ix2 b j)) = _
  rw [Cert.BroadcastTo.row_apply, Cert.BroadcastTo.col_apply, shapeCast_self, shapeCast_self]

/-- The negative mask at (b, j): not the positive mask, and the tile's camera j equal to row b's camera. -/
theorem neg_mask (tg cam : Vec Ideal S256x1 .i32) (pid cid : Vec Ideal S1x2048 .i32) (b : Fin 256) (j : Fin 2048) :
    k0_pay5 (F := Ideal) tg cam pid cid (ix2 b j)
      = IntOp.andi (~~~ (IntOp.cmpi .eq (pid (ix2 0 j)) (tg (ix2 b 0)))) (IntOp.cmpi .eq (cid (ix2 0 j)) (cam (ix2 b 0))) := by
  unfold k0_pay5
  show IntOp.andi (IntOp.xori (k0_pay4 (F := Ideal) tg pid (ix2 b j)) 1#1)
    (IntOp.cmpi .eq (broadcastTo S256x2048 _ _ (ix2 b j)) (broadcastTo S256x2048 _ _ (ix2 b j))) = _
  rw [pos_mask, xori_one_eq_not, Cert.BroadcastTo.row_apply, Cert.BroadcastTo.col_apply, shapeCast_self, shapeCast_self]

/-- A tile's total: the lane sums of the 256 rows, then their sum, as one double sum (both zeros disappear). -/
theorem tile_total (w : FVec Ideal S256x2048 .f32) (h1 : S256x2048.Reduces [1] S256) (h2 : S256.ShapeCasts S256x1)
    (h3 : S256x1.Reduces [0] S1) (h4 : S1.ShapeCasts S1x1) (hφ : FKind.Formats .f32)
    (hacc : (0x00000000#32 : BitVec 32) = FKind.add.neutral .f32 hφ) :
    shapeCast S1x1 (multiReduction .add [0] S1 (shapeCast S256x1 (multiReduction .add [1] S256 w 0x00000000#32 h1 hφ hacc) h2)
      0x00000000#32 h3 hφ hacc) h4 (ix2 0 0) = ∑ b : Fin 256, ∑ j : Fin 2048, w (ix2 b j) := by
  rw [Cert.Keepdims.shapeCast_1_11_apply, Ideal.multiReduction_add_single]
  show ∑ b : Fin 256, _ = _
  refine Finset.sum_congr rfl fun b _ => ?_
  have e0 : h3.lift (ix1 (0 : Fin 1)) b = ix2 b (0 : Fin 1) := funext fun a => Fin.ext (by
    match a with
    | ⟨0, _⟩ => rfl
    | ⟨1, _⟩ => rfl)
  rw [e0, Cert.Keepdims.shapeCast_a_a1_apply, Ideal.multiReduction_add_single]
  show ∑ j : Fin 2048, _ = _
  refine Finset.sum_congr rfl fun j _ => ?_
  exact congrArg w (funext fun a => Fin.ext (by
    match a with
    | ⟨0, _⟩ => rfl
    | ⟨1, _⟩ => rfl))

/-- The positive accumulator's new value: its old value plus the tile's masked positive weights. -/
theorem pos_acc (x : Vec Ideal S256x256 .f32) (f : Vec Ideal S2048x256 .f32) (tg : Vec Ideal S256x1 .i32) (pid : Vec Ideal S1x2048 .i32)
    (old : Vec Ideal S1x1 .f32) :
    k0_pay8 (F := Ideal) (k0_pay3 x f) (k0_pay4 tg pid) (k0_pay6 x f) (Scalar.ofBits .f32 0x00000000#32) old (ix2 0 0)
      = old (ix2 0 0) + ∑ b : Fin 256, ∑ j : Fin 2048,
          Scalar.select (IntOp.cmpi .eq (pid (ix2 0 j)) (tg (ix2 b 0)))
            (Cert.Spec.wPos (Cert.Spec.unit (∑ d : Fin 256, x (ix2 b d) * f (ix2 j d)))) 0 := by
  unfold k0_pay8
  rw [shapeCast_self]
  refine congrArg (old (ix2 0 0) + ·) ?_
  refine (tile_total _ _ _ _ _ _ _).trans ?_
  refine Finset.sum_congr rfl fun b _ => Finset.sum_congr rfl fun j _ => ?_
  rw [select_apply, pos_mask]
  refine congrArg₂ (Scalar.select _) ?_ Ideal.ofBits_zero_f32
  show Ideal.exp (Ideal.div ((Ideal.ofBits .f32 0x00000000#32 - k0_pay6 (F := Ideal) x f (ix2 b j))
    * (k0_pay3 (F := Ideal) x f (ix2 b j) - Ideal.ofBits .f32 0x3F800000#32)) (Ideal.ofBits .f32 0x3D4CCCCD#32)) = _
  rw [show k0_pay6 (F := Ideal) x f (ix2 b j) = max (Ideal.ofBits .f32 0x3F800000#32 - k0_pay3 (F := Ideal) x f (ix2 b j))
    (Ideal.ofBits .f32 0x00000000#32) from rfl, mapped_similarity]
  rfl

/-- The negative accumulator's new value: its old value plus the tile's masked negative weights. -/
theorem neg_acc (x : Vec Ideal S256x256 .f32) (f : Vec Ideal S2048x256 .f32) (tg cam : Vec Ideal S256x1 .i32) (pid cid : Vec Ideal S1x2048 .i32)
    (old : Vec Ideal S1x1 .f32) :
    k0_pay9 (F := Ideal) (k0_pay3 x f) (k0_pay5 tg cam pid cid) (k0_pay7 x f) old (ix2 0 0)
      = old (ix2 0 0) + ∑ b : Fin 256, ∑ j : Fin 2048,
          Scalar.select (IntOp.andi (~~~ (IntOp.cmpi .eq (pid (ix2 0 j)) (tg (ix2 b 0)))) (IntOp.cmpi .eq (cid (ix2 0 j)) (cam (ix2 b 0))))
            (Cert.Spec.wNeg (Cert.Spec.unit (∑ d : Fin 256, x (ix2 b d) * f (ix2 j d)))) 0 := by
  unfold k0_pay9
  rw [shapeCast_self]
  refine congrArg (old (ix2 0 0) + ·) ?_
  refine (tile_total _ _ _ _ _ _ _).trans ?_
  refine Finset.sum_congr rfl fun b _ => Finset.sum_congr rfl fun j _ => ?_
  rw [select_apply, neg_mask]
  refine congrArg₂ (Scalar.select _) ?_ Ideal.ofBits_zero_f32
  show Ideal.exp (Ideal.div (k0_pay7 (F := Ideal) x f (ix2 b j) * k0_pay3 (F := Ideal) x f (ix2 b j)) (Ideal.ofBits .f32 0x3D4CCCCD#32)) = _
  rw [show k0_pay7 (F := Ideal) x f (ix2 b j) = max (k0_pay3 (F := Ideal) x f (ix2 b j)) (Ideal.ofBits .f32 0x00000000#32) from rfl,
    mapped_similarity]
  rfl

end Cert.KernelIdeal.TileTerms

end
-- ==== Proof.Accumulate.lean ====
import proofs.«146163_j42640435314783_1_alg».proof.Proof.Gen.KernelIdeal.Frame
import proofs.«146163_j42640435314783_1_alg».proof.Proof.Pieces
import proofs.«146163_j42640435314783_1_alg».proof.Proof.TileTerms

/-!
  The two accumulators, point by point.

  After grid point n the positive accumulator holds the sum of the tiles' positive totals up to n, the negative one
  likewise: at the first point the cleared accumulator plus tile 0's total, at every later point the previous contents
  plus the point's total. A tile's total is stated over the point's input blocks (the 256 × 256 block of rows, the
  label and camera columns, the tile of the bank and the tile's label and camera rows). At the last point the output
  block is log (1 + P · N) of the two accumulators as they stand after that point.
-/

noncomputable section

namespace Cert.KernelIdeal.Accumulate

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The point's input blocks, at their literal shapes. -/
abbrev rows (t : Fin cfg0.N) : Vec Ideal S256x256 .f32 := iblk m c 0 t
abbrev labels (t : Fin cfg0.N) : Vec Ideal S256x1 .i32 := iblk m c 1 t
abbrev cameras (t : Fin cfg0.N) : Vec Ideal S256x1 .i32 := iblk m c 2 t
abbrev bank (t : Fin cfg0.N) : Vec Ideal S2048x256 .f32 := iblk m c 3 t
abbrev bankLabels (t : Fin cfg0.N) : Vec Ideal S1x2048 .i32 := iblk m c 4 t
abbrev bankCameras (t : Fin cfg0.N) : Vec Ideal S1x2048 .i32 := iblk m c 5 t

/-- Tile t's positive total. -/
def tilePos (t : Fin cfg0.N) : EReal :=
  ∑ b : Fin 256, ∑ j : Fin 2048,
    Scalar.select (IntOp.cmpi .eq (bankLabels m c t (ix2 0 j)) (labels m c t (ix2 b 0)))
      (Cert.Spec.wPos (Cert.Spec.unit (∑ d : Fin 256, rows m c t (ix2 b d) * bank m c t (ix2 j d)))) 0

/-- Tile t's negative total. -/
def tileNeg (t : Fin cfg0.N) : EReal :=
  ∑ b : Fin 256, ∑ j : Fin 2048,
    Scalar.select (IntOp.andi (~~~ (IntOp.cmpi .eq (bankLabels m c t (ix2 0 j)) (labels m c t (ix2 b 0))))
        (IntOp.cmpi .eq (bankCameras m c t (ix2 0 j)) (cameras m c t (ix2 b 0))))
      (Cert.Spec.wNeg (Cert.Spec.unit (∑ d : Fin 256, rows m c t (ix2 b d) * bank m c t (ix2 j d)))) 0

/-- The positive accumulator's one entry after point n (0 past the grid). -/
def posAfter (n : ℕ) : EReal :=
  if h : n < cfg0.N then ((outsAt0 m c n h).2.1 : Vec Ideal S1x1 .f32) (ix2 0 0) else 0

/-- The negative accumulator's one entry after point n (0 past the grid). -/
def negAfter (n : ℕ) : EReal :=
  if h : n < cfg0.N then ((outsAt0 m c n h).2.2 : Vec Ideal S1x1 .f32) (ix2 0 0) else 0

/-- The cleared accumulator holds zero. -/
theorem cleared_pos : k0_pay1 (F := Ideal) (ix2 0 0) = 0 := by
  unfold k0_pay1; rw [shapeCast_self]; exact Ideal.ofBits_zero_f32
theorem cleared_neg : k0_pay2 (F := Ideal) (ix2 0 0) = 0 := by
  unfold k0_pay2; rw [shapeCast_self]; exact Ideal.ofBits_zero_f32

/-- One step of the positive accumulator. -/
theorem pos_step (t : Fin cfg0.N) :
    posAfter m c t.val = (if t.val = 0 then 0 else posAfter m c (t.val - 1)) + tilePos m c t := by
  have hN : t.val < 49 := lt_of_lt_of_eq t.isLt (show cfg0.N = 49 from N_0)
  have hprev : t.val - 1 < cfg0.N := Nat.lt_of_le_of_lt (Nat.sub_le _ _) t.isLt
  unfold posAfter
  rw [dif_pos t.isLt, dif_pos hprev]
  by_cases h0 : t.val % 49 = 0
  · have h1 : ¬ t.val % 49 = 48 := by omega
    have hz : t.val = 0 := by omega
    rw [if_pos hz, outsAt0_A m c t h0 h1]
    dsimp only
    rw [Pieces.first_pos]
    refine (TileTerms.pos_acc _ _ _ _ _).trans ?_
    exact congrArg (· + tilePos m c t) cleared_pos
  · have hz : ¬ t.val = 0 := by omega
    rw [if_neg hz]
    by_cases h1 : t.val % 49 = 48
    · rw [outsAt0_C m c t h0 h1]
      dsimp only
      rw [Pieces.last_pos]
      exact TileTerms.pos_acc _ _ _ _ _
    · rw [outsAt0_B m c t h0 h1]
      dsimp only
      rw [Pieces.mid_pos]
      exact TileTerms.pos_acc _ _ _ _ _

/-- One step of the negative accumulator. -/
theorem neg_step (t : Fin cfg0.N) :
    negAfter m c t.val = (if t.val = 0 then 0 else negAfter m c (t.val - 1)) + tileNeg m c t := by
  have hN : t.val < 49 := lt_of_lt_of_eq t.isLt (show cfg0.N = 49 from N_0)
  have hprev : t.val - 1 < cfg0.N := Nat.lt_of_le_of_lt (Nat.sub_le _ _) t.isLt
  unfold negAfter
  rw [dif_pos t.isLt, dif_pos hprev]
  by_cases h0 : t.val % 49 = 0
  · have h1 : ¬ t.val % 49 = 48 := by omega
    have hz : t.val = 0 := by omega
    rw [if_pos hz, outsAt0_A m c t h0 h1]
    dsimp only
    rw [Pieces.first_neg]
    refine (TileTerms.neg_acc _ _ _ _ _ _ _).trans ?_
    exact congrArg (· + tileNeg m c t) cleared_neg
  · have hz : ¬ t.val = 0 := by omega
    rw [if_neg hz]
    by_cases h1 : t.val % 49 = 48
    · rw [outsAt0_C m c t h0 h1]
      dsimp only
      rw [Pieces.last_neg]
      exact TileTerms.neg_acc _ _ _ _ _ _ _
    · rw [outsAt0_B m c t h0 h1]
      dsimp only
      rw [Pieces.mid_neg]
      exact TileTerms.neg_acc _ _ _ _ _ _ _

/-- At the last point (point 48) the output block holds log (1 + P · N) of the two accumulators after that point. -/
theorem out_last (h : 48 < cfg0.N) :
    ((outsAt0 m c 48 h).1 : Vec Ideal S1x1 .f32) (ix2 0 0) = Ideal.log1p (posAfter m c 48 * negAfter m c 48) := by
  unfold posAfter negAfter
  rw [dif_pos h, dif_pos h, outsAt0_C m c ⟨48, h⟩ (show ¬ (48 : ℕ) % 49 = 0 by decide) (show (48 : ℕ) % 49 = 48 by decide)]
  dsimp only
  rw [Pieces.last_out, Pieces.last_pos, Pieces.last_neg]
  rfl

end Cert.KernelIdeal.Accumulate

end
-- ==== Proof.Arrays.lean ====
/-
  What the kernel's six input windows find, in terms of the arguments.

  Before the tiled loop runs, the arguments are prepared once: the inputs `x` are divided row by row by
  `max (‖row‖, ε)`; the 256 targets and the 256 camera ids are viewed as columns `[256, 1]`; the bank is extended from
  100000 to 100352 = 49 · 2048 rows by rows of zeros; the bank's labels and camera ids are viewed as rows `[1, 100000]`
  and extended to `[1, 100352]` by the word of −1. At point `t` of the 49 the loop sees all of the first three arrays,
  rows `2048 t … 2048 t + 2047` of the extended bank, and columns `2048 t … 2048 t + 2047` of the two extended label rows.

  This file reads each of these blocks at an index: below position 100000 a block entry IS the argument's entry at
  position `2048 t + j`; from position 100000 on, a label entry is the word of −1. The normalised inputs are the very term
  the reference program computes for its own first stage, so nothing about the normalisation is opened here.
-/
import proofs.«146163_j42640435314783_1_alg».proof.Proof.Gen.KernelIdeal.Frame
import proofs.«146163_j42640435314783_1_alg».proof.Proof.Gen.ReferenceIdeal.Read
import proofs.«146163_j42640435314783_1_alg».proof.Proof.LibKeepdims
import Idealize.ShloMosaic.Lib.KernelVsHost
import Idealize.ShloMosaic.Lib.Pipeline.Value
import Idealize.ShloMosaic.Lib.ValueIdx

set_option maxRecDepth 16384

noncomputable section

namespace Cert.Arrays

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (c : Dev nD)

/-! ## The arrays the windows stage, as host terms of the arguments -/

/-- The targets, viewed as a column. -/
theorem v10_term :
    (V m c main_v10 : S256x1.Idx → BitVec 32) = shapeCast S256x1 (m ((c : Thread nD τ).loc main_arg2) : S256.Idx → BitVec 32) shapeCasts_S256_S256x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- The camera ids of the rows, viewed as a column. -/
theorem v11_term :
    (V m c main_v11 : S256x1.Idx → BitVec 32) = shapeCast S256x1 (m ((c : Thread nD τ).loc main_arg3) : S256.Idx → BitVec 32) shapeCasts_S256_S256x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- The bank, with 352 rows of the converted integer 0 appended. -/
theorem v5_term :
    (V m c main_v5 : S100352x256.Idx → EReal) = pad S100352x256 ![0, 0] ![352, 0] ![0, 0] (m ((c : Thread nD τ).loc main_arg1) : S100000x256.Idx → EReal)
      (sitofp (F := Ideal) .f32 (constantI S_ 32 0#32)) pads_S100000x256_S100352x256_03520_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- The bank's labels as one row, with 352 entries of the word of −1 appended. -/
theorem v8_term :
    (V m c main_v8 : S1x100352.Idx → BitVec 32) = pad S1x100352 ![0, 0] ![0, 352] ![0, 0]
      (shapeCast S1x100000 (m ((c : Thread nD τ).loc main_arg4) : S100000.Idx → BitVec 32) shapeCasts_S100000_S1x100000)
      (constantI S_ 32 4294967295#32) pads_S1x100000_S1x100352_000_03520 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- The bank's camera ids as one row, with 352 entries of the word of −1 appended. -/
theorem v9_term :
    (V m c main_v9 : S1x100352.Idx → BitVec 32) = pad S1x100352 ![0, 0] ![0, 352] ![0, 0]
      (shapeCast S1x100000 (m ((c : Thread nD τ).loc main_arg5) : S100000.Idx → BitVec 32) shapeCasts_S100000_S1x100000)
      (constantI S_ 32 4294967295#32) pads_S1x100000_S1x100352_000_03520 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- The row-normalised inputs: the same host operations, in the same order, as the reference applies to its first argument. -/
theorem v4_term :
    (V m c main_v4 : S256x256.Idx → EReal) = Cert.ReferenceIdeal.Read.val_main_v4 (F := Ideal) (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-! ## The padded arrays read at an index -/

/-- A row of the padded bank below row 100000 is the bank's row. -/
theorem pad_rows_inside (x : S100000x256.Idx → EReal) (v : S_.Idx → EReal) (n : Fin 100352) (d : Fin 256) (hn : n.val < 100000) :
    pad S100352x256 ![0, 0] ![352, 0] ![0, 0] x v pads_S100000x256_S100352x256_03520_000 h_S_ (ix2 n d)
      = x (ix2 (⟨n.val, hn⟩ : Fin 100000) d) :=
  pad_apply_of_inside _ _ _ x v _ _ (ix2 n d) (ix2 (⟨n.val, hn⟩ : Fin 100000) d) (fun a => by
    match a with
    | ⟨0, _⟩ => show n.val = 0 + n.val * (0 + 1); omega
    | ⟨1, _⟩ => show d.val = 0 + d.val * (0 + 1); omega)

/-- A vector of 100000 words laid out as one row and padded to 100352: below column 100000 it is the vector. -/
theorem pad_row_inside (x : S100000.Idx → BitVec 32) (v : S_.Idx → BitVec 32) (n : Fin 100352) (hn : n.val < 100000) :
    pad S1x100352 ![0, 0] ![0, 352] ![0, 0] (shapeCast S1x100000 x shapeCasts_S100000_S1x100000) v
      pads_S1x100000_S1x100352_000_03520 h_S_ (ix2 (0 : Fin 1) n) = x (ix1 (⟨n.val, hn⟩ : Fin 100000)) :=
  (pad_apply_of_inside _ _ _ (shapeCast S1x100000 x shapeCasts_S100000_S1x100000) v _ _ (ix2 (0 : Fin 1) n)
    (ix2 (0 : Fin 1) (⟨n.val, hn⟩ : Fin 100000)) (fun a => by
      match a with
      | ⟨0, _⟩ => show 0 = 0 + 0 * (0 + 1); omega
      | ⟨1, _⟩ => show n.val = 0 + n.val * (0 + 1); omega)).trans
    (shapeCast_apply x shapeCasts_S100000_S1x100000 _ (ix1 (⟨n.val, hn⟩ : Fin 100000)) (by
      rw [Shape.rowMajor_val_two, Shape.rowMajor_val_one]
      show n.val = 0 * 100000 + n.val
      omega))

/-- … and from column 100000 on it is the padding word. -/
theorem pad_row_outside (x : S100000.Idx → BitVec 32) (v : S_.Idx → BitVec 32) (n : Fin 100352) (hn : 100000 ≤ n.val) :
    pad S1x100352 ![0, 0] ![0, 352] ![0, 0] (shapeCast S1x100000 x shapeCasts_S100000_S1x100000) v
      pads_S1x100000_S1x100352_000_03520 h_S_ (ix2 (0 : Fin 1) n) = v ix0 :=
  (pad_apply_of_not_inside _ _ _ (shapeCast S1x100000 x shapeCasts_S100000_S1x100000) v _ _ (ix2 (0 : Fin 1) n) (1 : Fin 2) (by
    intro hin
    have h3 : (n.val - 0) / (0 + 1) < 100000 := hin.2.2
    simp only [Nat.sub_zero, Nat.zero_add, Nat.div_one] at h3
    omega)).trans (congrArg v (eq_ix0 _))

/-! ## The staged arrays read at an index -/

theorem v10_at (b : Fin 256) :
    (V m c main_v10 : S256x1.Idx → BitVec 32) (ix2 b (0 : Fin 1)) = (m ((c : Thread nD τ).loc main_arg2) : S256.Idx → BitVec 32) (ix1 b) := by
  rw [v10_term]
  exact Cert.Keepdims.shapeCast_a_a1_apply _ _ b 0

theorem v11_at (b : Fin 256) :
    (V m c main_v11 : S256x1.Idx → BitVec 32) (ix2 b (0 : Fin 1)) = (m ((c : Thread nD τ).loc main_arg3) : S256.Idx → BitVec 32) (ix1 b) := by
  rw [v11_term]
  exact Cert.Keepdims.shapeCast_a_a1_apply _ _ b 0

theorem v5_at (n : Fin 100352) (d : Fin 256) (hn : n.val < 100000) :
    (V m c main_v5 : S100352x256.Idx → EReal) (ix2 n d)
      = (m ((c : Thread nD τ).loc main_arg1) : S100000x256.Idx → EReal) (ix2 (⟨n.val, hn⟩ : Fin 100000) d) := by
  rw [v5_term]
  exact pad_rows_inside _ _ n d hn

theorem v8_at_inside (n : Fin 100352) (hn : n.val < 100000) :
    (V m c main_v8 : S1x100352.Idx → BitVec 32) (ix2 (0 : Fin 1) n)
      = (m ((c : Thread nD τ).loc main_arg4) : S100000.Idx → BitVec 32) (ix1 (⟨n.val, hn⟩ : Fin 100000)) := by
  rw [v8_term]
  exact pad_row_inside _ _ n hn

theorem v8_at_outside (n : Fin 100352) (hn : 100000 ≤ n.val) :
    (V m c main_v8 : S1x100352.Idx → BitVec 32) (ix2 (0 : Fin 1) n) = 4294967295#32 := by
  rw [v8_term]
  exact pad_row_outside _ _ n hn

theorem v9_at_inside (n : Fin 100352) (hn : n.val < 100000) :
    (V m c main_v9 : S1x100352.Idx → BitVec 32) (ix2 (0 : Fin 1) n)
      = (m ((c : Thread nD τ).loc main_arg5) : S100000.Idx → BitVec 32) (ix1 (⟨n.val, hn⟩ : Fin 100000)) := by
  rw [v9_term]
  exact pad_row_inside _ _ n hn

theorem v9_at_outside (n : Fin 100352) (hn : 100000 ≤ n.val) :
    (V m c main_v9 : S1x100352.Idx → BitVec 32) (ix2 (0 : Fin 1) n) = 4294967295#32 := by
  rw [v9_term]
  exact pad_row_outside _ _ n hn

/-! ## The windows' blocks read at an index

Window 0, 1, 2 stage their whole array at every point; window 3 stages rows `2048 t … 2048 t + 2047` of the padded
bank at point `t`, windows 4 and 5 columns `2048 t … 2048 t + 2047` of the padded label rows. A block's coordinate on an
axis is the block index times the block size plus the coordinate inside the block. -/

/-- The windows' index maps, decided once over the 49 points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- A point's number is below 49. -/
theorem point_lt (t : Fin cfg0.N) : t.val < 49 := lt_of_lt_of_eq t.isLt N_0

/-- A position inside block `t` is a position of the padded axis. -/
theorem pos_lt (t : Fin cfg0.N) (j : Fin 2048) : 2048 * t.val + j.val < 100352 := by
  have := point_lt t
  have := j.isLt
  omega

theorem iblk0_at (t : Fin cfg0.N) (b d : Fin 256) :
    (iblk m c 0 t : S256x256.Idx → EReal) (ix2 b d) = (V m c main_v4 : S256x256.Idx → EReal) (ix2 b d) := by
  obtain ⟨e0, e1, -⟩ := idx_facts t
  unfold iblk
  rw [View.read_apply]
  show V m c main_v4 _ = V m c main_v4 _
  congr 1
  funext a
  apply Fin.ext
  match a with
  | ⟨0, _⟩ => show win0_0.index t (0 : Fin 2) * 256 + 1 * b.val = b.val; rw [e0]; omega
  | ⟨1, _⟩ => show win0_0.index t (1 : Fin 2) * 256 + 1 * d.val = d.val; rw [e1]; omega

theorem iblk1_at (t : Fin cfg0.N) (b : Fin 256) :
    (iblk m c 1 t : S256x1.Idx → BitVec 32) (ix2 b (0 : Fin 1)) = (V m c main_v10 : S256x1.Idx → BitVec 32) (ix2 b (0 : Fin 1)) := by
  obtain ⟨-, -, e0, e1, -⟩ := idx_facts t
  unfold iblk
  rw [View.read_apply]
  show V m c main_v10 _ = V m c main_v10 _
  congr 1
  funext a
  apply Fin.ext
  match a with
  | ⟨0, _⟩ => show win0_1.index t (0 : Fin 2) * 256 + 1 * b.val = b.val; rw [e0]; omega
  | ⟨1, _⟩ => show win0_1.index t (1 : Fin 2) * 1 + 1 * 0 = 0; rw [e1]

theorem iblk2_at (t : Fin cfg0.N) (b : Fin 256) :
    (iblk m c 2 t : S256x1.Idx → BitVec 32) (ix2 b (0 : Fin 1)) = (V m c main_v11 : S256x1.Idx → BitVec 32) (ix2 b (0 : Fin 1)) := by
  obtain ⟨-, -, -, -, e0, e1, -⟩ := idx_facts t
  unfold iblk
  rw [View.read_apply]
  show V m c main_v11 _ = V m c main_v11 _
  congr 1
  funext a
  apply Fin.ext
  match a with
  | ⟨0, _⟩ => show win0_2.index t (0 : Fin 2) * 256 + 1 * b.val = b.val; rw [e0]; omega
  | ⟨1, _⟩ => show win0_2.index t (1 : Fin 2) * 1 + 1 * 0 = 0; rw [e1]

theorem iblk3_at (t : Fin cfg0.N) (j : Fin 2048) (d : Fin 256) :
    (iblk m c 3 t : S2048x256.Idx → EReal) (ix2 j d)
      = (V m c main_v5 : S100352x256.Idx → EReal) (ix2 (⟨2048 * t.val + j.val, pos_lt t j⟩ : Fin 100352) d) := by
  obtain ⟨-, -, -, -, -, -, e0, e1, -⟩ := idx_facts t
  unfold iblk
  rw [View.read_apply]
  show V m c main_v5 _ = V m c main_v5 _
  congr 1
  funext a
  apply Fin.ext
  match a with
  | ⟨0, _⟩ => show win0_3.index t (0 : Fin 2) * 2048 + 1 * j.val = 2048 * t.val + j.val; rw [e0]; omega
  | ⟨1, _⟩ => show win0_3.index t (1 : Fin 2) * 256 + 1 * d.val = d.val; rw [e1]; omega

theorem iblk4_at (t : Fin cfg0.N) (j : Fin 2048) :
    (iblk m c 4 t : S1x2048.Idx → BitVec 32) (ix2 (0 : Fin 1) j)
      = (V m c main_v8 : S1x100352.Idx → BitVec 32) (ix2 (0 : Fin 1) (⟨2048 * t.val + j.val, pos_lt t j⟩ : Fin 100352)) := by
  obtain ⟨-, -, -, -, -, -, -, -, e0, e1, -⟩ := idx_facts t
  unfold iblk
  rw [View.read_apply]
  show V m c main_v8 _ = V m c main_v8 _
  congr 1
  funext a
  apply Fin.ext
  match a with
  | ⟨0, _⟩ => show win0_4.index t (0 : Fin 2) * 1 + 1 * 0 = 0; rw [e0]
  | ⟨1, _⟩ => show win0_4.index t (1 : Fin 2) * 2048 + 1 * j.val = 2048 * t.val + j.val; rw [e1]; omega

theorem iblk5_at (t : Fin cfg0.N) (j : Fin 2048) :
    (iblk m c 5 t : S1x2048.Idx → BitVec 32) (ix2 (0 : Fin 1) j)
      = (V m c main_v9 : S1x100352.Idx → BitVec 32) (ix2 (0 : Fin 1) (⟨2048 * t.val + j.val, pos_lt t j⟩ : Fin 100352)) := by
  obtain ⟨-, -, -, -, -, -, -, -, -, -, e0, e1⟩ := idx_facts t
  unfold iblk
  rw [View.read_apply]
  show V m c main_v9 _ = V m c main_v9 _
  congr 1
  funext a
  apply Fin.ext
  match a with
  | ⟨0, _⟩ => show win0_5.index t (0 : Fin 2) * 1 + 1 * 0 = 0; rw [e0]
  | ⟨1, _⟩ => show win0_5.index t (1 : Fin 2) * 2048 + 1 * j.val = 2048 * t.val + j.val; rw [e1]; omega

/-! ## What the windows find, in terms of the arguments

For a point `t`, a row `b` and a feature `d` of the inputs, and a position `j` inside the block; `2048 t + j` is the
position in the extended bank. -/

/-- The inputs' block is the row-normalised inputs, as the reference computes them. -/
theorem blk_x (t : Fin cfg0.N) (b d : Fin 256) :
    (iblk m c 0 t : S256x256.Idx → EReal) (ix2 b d)
      = Cert.ReferenceIdeal.Read.val_main_v4 (F := Ideal) (m ((c : Thread nD τ).loc main_arg0)) (ix2 b d) :=
  (iblk0_at m c t b d).trans (congrFun (v4_term m c) (ix2 b d))

/-- The targets' block holds row `b`'s target. -/
theorem blk_tg (t : Fin cfg0.N) (b : Fin 256) :
    (iblk m c 1 t : S256x1.Idx → BitVec 32) (ix2 b (0 : Fin 1)) = (m ((c : Thread nD τ).loc main_arg2) : S256.Idx → BitVec 32) (ix1 b) :=
  (iblk1_at m c t b).trans (v10_at m c b)

/-- The camera ids' block holds row `b`'s camera id. -/
theorem blk_cam (t : Fin cfg0.N) (b : Fin 256) :
    (iblk m c 2 t : S256x1.Idx → BitVec 32) (ix2 b (0 : Fin 1)) = (m ((c : Thread nD τ).loc main_arg3) : S256.Idx → BitVec 32) (ix1 b) :=
  (iblk2_at m c t b).trans (v11_at m c b)

/-- Below position 100000 the bank's block holds the bank's row `2048 t + j`. -/
theorem blk_f (t : Fin cfg0.N) (j : Fin 2048) (d : Fin 256) (hn : 2048 * t.val + j.val < 100000) :
    (iblk m c 3 t : S2048x256.Idx → EReal) (ix2 j d)
      = (m ((c : Thread nD τ).loc main_arg1) : S100000x256.Idx → EReal) (ix2 (⟨2048 * t.val + j.val, hn⟩ : Fin 100000) d) :=
  (iblk3_at m c t j d).trans (v5_at m c ⟨2048 * t.val + j.val, pos_lt t j⟩ d hn)

/-- The labels' block holds entry `2048 t + j`'s label below position 100000, and the word of −1 from there on. -/
theorem blk_pid (t : Fin cfg0.N) (j : Fin 2048) :
    (∀ hn : 2048 * t.val + j.val < 100000, (iblk m c 4 t : S1x2048.Idx → BitVec 32) (ix2 (0 : Fin 1) j)
        = (m ((c : Thread nD τ).loc main_arg4) : S100000.Idx → BitVec 32) (ix1 (⟨2048 * t.val + j.val, hn⟩ : Fin 100000)))
    ∧ (100000 ≤ 2048 * t.val + j.val → (iblk m c 4 t : S1x2048.Idx → BitVec 32) (ix2 (0 : Fin 1) j) = 4294967295#32) :=
  ⟨fun hn => (iblk4_at m c t j).trans (v8_at_inside m c ⟨2048 * t.val + j.val, pos_lt t j⟩ hn),
   fun hn => (iblk4_at m c t j).trans (v8_at_outside m c ⟨2048 * t.val + j.val, pos_lt t j⟩ hn)⟩

/-- The bank's camera ids' block: entry `2048 t + j`'s camera id below position 100000, the word of −1 from there on. -/
theorem blk_cid (t : Fin cfg0.N) (j : Fin 2048) :
    (∀ hn : 2048 * t.val + j.val < 100000, (iblk m c 5 t : S1x2048.Idx → BitVec 32) (ix2 (0 : Fin 1) j)
        = (m ((c : Thread nD τ).loc main_arg5) : S100000.Idx → BitVec 32) (ix1 (⟨2048 * t.val + j.val, hn⟩ : Fin 100000)))
    ∧ (100000 ≤ 2048 * t.val + j.val → (iblk m c 5 t : S1x2048.Idx → BitVec 32) (ix2 (0 : Fin 1) j) = 4294967295#32) :=
  ⟨fun hn => (iblk5_at m c t j).trans (v9_at_inside m c ⟨2048 * t.val + j.val, pos_lt t j⟩ hn),
   fun hn => (iblk5_at m c t j).trans (v9_at_outside m c ⟨2048 * t.val + j.val, pos_lt t j⟩ hn)⟩

end Cert.Arrays

end
-- ==== Proof.LibChunks.lean ====
/-
  A running value updated chunk by chunk ends at the value over the whole range.

  A range of T·C places is visited in T chunks of C places. Three running values are considered, each started at a
  value b and updated once per chunk: a sum that adds the chunk's sum, a minimum that takes the minimum with the chunk's
  minimum, a maximum that takes the maximum with the chunk's maximum. After the last chunk the sum is the sum over all
  places (in any commutative additive monoid, so on the extended reals with no finiteness asked), and the minimum
  (maximum) is the minimum (maximum) from b over all places (in any linear order; the chunk's own minimum may be taken
  from any start value not below b, the chunk's own maximum from any start value not above b, since b is folded in
  anyway). Over Mathlib only.
-/
import Mathlib.Algebra.BigOperators.Fin
import Mathlib.Logic.Equiv.Fin.Basic
import Mathlib.Data.Finset.Fold
import Mathlib.Order.Lattice

namespace LibChunks

open Finset

/-- The place C·t + c lies below T·C when t < T and c < C. -/
theorem place_lt {T C : ℕ} {t : ℕ} (ht : t < T) (c : Fin C) : C * t + c.val < T * C := by
  calc C * t + c.val < C * t + C := Nat.add_lt_add_left c.isLt _
    _ = C * (t + 1) := (Nat.mul_succ _ _).symm
    _ ≤ C * T := Nat.mul_le_mul_left _ ht
    _ = T * C := Nat.mul_comm _ _

/-- Every place below T·C is C·t + c for its chunk t and its position c in the chunk. -/
theorem place_split {T C : ℕ} (k : Fin (T * C)) :
    ∃ (t : ℕ) (ht : t < T) (c : Fin C), (⟨C * t + c.val, place_lt ht c⟩ : Fin (T * C)) = k := by
  have hlt : k.val < T * C := k.isLt
  have hC : 0 < C := by
    rcases Nat.eq_zero_or_pos C with h | h
    · exfalso
      have h2 : T * C = 0 := by rw [h, Nat.mul_zero]
      omega
    · exact h
  have hk : k.val < C * T := by
    have h3 := Nat.mul_comm C T
    omega
  refine ⟨k.val / C, Nat.div_lt_of_lt_mul hk, ⟨k.val % C, Nat.mod_lt _ hC⟩, Fin.ext ?_⟩
  exact Nat.div_add_mod k.val C

section Sum

variable {M : Type*} [AddCommMonoid M]

/-- A sum started at zero that adds one chunk's sum per step holds, after n steps, the sum of the first n chunks. -/
theorem chain_sum_prefix (T : ℕ) (S : (t : ℕ) → t < T → M) (acc : ℕ → M) (h0 : acc 0 = 0)
    (hs : ∀ n (h : n < T), acc (n + 1) = acc n + S n h) :
    ∀ n (hn : n ≤ T), acc n = ∑ t : Fin n, S t.val (Nat.lt_of_lt_of_le t.isLt hn)
  | 0, _ => by rw [h0]; exact (Finset.sum_empty).symm
  | n + 1, hn => by
    rw [hs n hn, chain_sum_prefix T S acc h0 hs n (Nat.le_of_lt hn), Fin.sum_univ_castSucc]
    rfl

/-- … and after the last step the sum over all T·C places. -/
theorem chain_sum_blocks (T C : ℕ) (g : Fin (T * C) → M) (acc : ℕ → M) (h0 : acc 0 = 0)
    (hs : ∀ n (h : n < T), acc (n + 1) = acc n + ∑ c : Fin C, g ⟨C * n + c.val, place_lt h c⟩) :
    acc T = ∑ k : Fin (T * C), g k := by
  rw [chain_sum_prefix T (fun n h => ∑ c : Fin C, g ⟨C * n + c.val, place_lt h c⟩) acc h0 hs T (Nat.le_refl _),
    ← Equiv.sum_comp (finProdFinEquiv (m := T) (n := C)) g, Fintype.sum_prod_type]
  refine Finset.sum_congr rfl fun t _ => Finset.sum_congr rfl fun c _ => ?_
  congr 1
  apply Fin.ext
  simp [finProdFinEquiv, Nat.add_comm]

end Sum

section Order

variable {β : Type*} [LinearOrder β]

/-- A minimum started at b that takes, per step, the minimum with the chunk's minimum (from any b' ≥ b) is, after the
    last step, the minimum from b over all T·C places. -/
theorem chain_min_blocks (T C : ℕ) (b b' : β) (hb : b ≤ b') (g : Fin (T * C) → β) (acc : ℕ → β) (h0 : acc 0 = b)
    (hs : ∀ n (h : n < T), acc (n + 1)
      = min (acc n) ((Finset.univ : Finset (Fin C)).fold min b' fun c => g ⟨C * n + c.val, place_lt h c⟩)) :
    acc T = (Finset.univ : Finset (Fin (T * C))).fold min b g := by
  have key : ∀ n (hn : n ≤ T) (z : β),
      z ≤ acc n ↔ z ≤ b ∧ ∀ t (ht : t < n) (c : Fin C), z ≤ g ⟨C * t + c.val, place_lt (Nat.lt_of_lt_of_le ht hn) c⟩ := by
    intro n
    induction n with
    | zero => intro _ z; rw [h0]; exact ⟨fun h => ⟨h, fun t ht => absurd ht (Nat.not_lt_zero t)⟩, fun h => h.1⟩
    | succ n ih =>
      intro hn z
      rw [hs n hn, le_min_iff, ih (Nat.le_of_lt hn), Finset.le_fold_min]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans h1 hb, fun c _ => h2 n (Nat.lt_succ_self n) c⟩
  refine le_antisymm ?_ ?_
  · refine (Finset.le_fold_min _).2 ⟨((key T (Nat.le_refl _) _).1 le_rfl).1, fun k _ => ?_⟩
    obtain ⟨t, ht, c, rfl⟩ := place_split k
    exact ((key T (Nat.le_refl _) _).1 le_rfl).2 t ht c
  · refine (key T (Nat.le_refl _) _).2 ⟨(Finset.le_fold_min _).1 le_rfl |>.1, fun t ht c => ?_⟩
    exact ((Finset.le_fold_min _).1 le_rfl).2 _ (Finset.mem_univ _)

/-- A maximum started at b that takes, per step, the maximum with the chunk's maximum (from any b' ≤ b) is, after the
    last step, the maximum from b over all T·C places. -/
theorem chain_max_blocks (T C : ℕ) (b b' : β) (hb : b' ≤ b) (g : Fin (T * C) → β) (acc : ℕ → β) (h0 : acc 0 = b)
    (hs : ∀ n (h : n < T), acc (n + 1)
      = max (acc n) ((Finset.univ : Finset (Fin C)).fold max b' fun c => g ⟨C * n + c.val, place_lt h c⟩)) :
    acc T = (Finset.univ : Finset (Fin (T * C))).fold max b g := by
  have key : ∀ n (hn : n ≤ T) (z : β),
      acc n ≤ z ↔ b ≤ z ∧ ∀ t (ht : t < n) (c : Fin C), g ⟨C * t + c.val, place_lt (Nat.lt_of_lt_of_le ht hn) c⟩ ≤ z := by
    intro n
    induction n with
    | zero => intro _ z; rw [h0]; exact ⟨fun h => ⟨h, fun t ht => absurd ht (Nat.not_lt_zero t)⟩, fun h => h.1⟩
    | succ n ih =>
      intro hn z
      rw [hs n hn, max_le_iff, ih (Nat.le_of_lt hn), Finset.fold_max_le]
      constructor
      · rintro ⟨⟨h1, h2⟩, _, h4⟩
        refine ⟨h1, fun t ht c => ?_⟩
        rcases Nat.lt_succ_iff_lt_or_eq.mp ht with h | rfl
        · exact h2 t h c
        · exact h4 c (Finset.mem_univ c)
      · rintro ⟨h1, h2⟩
        exact ⟨⟨h1, fun t ht c => h2 t (Nat.lt_succ_of_lt ht) c⟩, le_trans hb h1, fun c _ => h2 n (Nat.lt_succ_self n) c⟩
  refine le_antisymm ?_ ?_
  · refine (key T (Nat.le_refl _) _).2 ⟨(Finset.fold_max_le _).1 le_rfl |>.1, fun t ht c => ?_⟩
    exact ((Finset.fold_max_le _).1 le_rfl).2 _ (Finset.mem_univ _)
  · refine (Finset.fold_max_le _).2 ⟨((key T (Nat.le_refl _) _).1 le_rfl).1, fun k _ => ?_⟩
    obtain ⟨t, ht, c, rfl⟩ := place_split k
    exact ((key T (Nat.le_refl _) _).1 le_rfl).2 t ht c

end Order

end LibChunks
-- ==== Proof.LibSumPad.lean ====
/-
  A finite sum whose terms vanish from position `n` on is the sum of its first `n` terms: over any additive
  commutative monoid, `∑ p : Fin N, F p = ∑ q : Fin n, F q` (with `q` read in `Fin N`) when `F p = 0` for `n ≤ p`.
  This is what zero-padding a contracted axis from `n` to `N` does to a contraction.
-/
import Mathlib.Algebra.BigOperators.Fin

namespace LibSumPad

open scoped BigOperators

theorem sum_eq_sum_castLE {M : Type} [AddCommMonoid M] {n N : Nat} (h : n ≤ N) (F : Fin N → M)
    (hz : ∀ p : Fin N, n ≤ p.val → F p = 0) : ∑ p : Fin N, F p = ∑ q : Fin n, F (Fin.castLE h q) := by
  have e : ∑ q : Fin n, F (Fin.castLE h q) = ∑ p ∈ Finset.univ.map (Fin.castLEEmb h), F p := by
    rw [Finset.sum_map]; rfl
  rw [e]
  symm
  refine Finset.sum_subset (Finset.subset_univ _) fun p _ hp => hz p ?_
  by_contra hlt
  exact hp (Finset.mem_map.mpr ⟨⟨p.val, Nat.lt_of_not_le hlt⟩, Finset.mem_univ _, Fin.ext rfl⟩)

end LibSumPad
-- ==== Proof.TileSums.lean ====
/-
  Sums over a tiled, zero-padded axis.

  A total over pairs (row b, place k) is accumulated tile by tile: the place axis, of true length n, is padded to
  T · C places and cut into T tiles of C places; the accumulator starts at zero and step t adds the sum, over all rows
  and over the C places of tile t, of the pair's term. If every term at a padded place (n ≤ k) vanishes, the
  accumulator ends at the double sum over the rows and the n true places. Only commutativity and associativity of
  the addition are used, so this holds in any additive commutative monoid (the extended reals included: no
  finiteness is asked).
-/
import proofs.«146163_j42640435314783_1_alg».proof.Proof.LibChunks
import proofs.«146163_j42640435314783_1_alg».proof.Proof.LibSumPad

namespace Cert.TileSums

open Finset

variable {M : Type} [AddCommMonoid M]

/-- The accumulator after the last tile is the double sum over the rows and the true places. -/
theorem total_of_tiles (B T C n : ℕ) (hn : n ≤ T * C) (term : Fin B → Fin (T * C) → M) (acc : ℕ → M) (h0 : acc 0 = 0)
    (hs : ∀ t (h : t < T), acc (t + 1) = acc t + ∑ b : Fin B, ∑ j : Fin C, term b ⟨C * t + j.val, LibChunks.place_lt h j⟩)
    (hpad : ∀ (b : Fin B) (k : Fin (T * C)), n ≤ k.val → term b k = 0) :
    acc T = ∑ b : Fin B, ∑ q : Fin n, term b (Fin.castLE hn q) := by
  have hcols : acc T = ∑ k : Fin (T * C), ∑ b : Fin B, term b k :=
    LibChunks.chain_sum_blocks T C (fun k => ∑ b : Fin B, term b k) acc h0 (fun t h => by rw [hs t h, Finset.sum_comm])
  rw [hcols, LibSumPad.sum_eq_sum_castLE hn (fun k => ∑ b : Fin B, term b k)
    (fun p hp => Finset.sum_eq_zero fun b _ => hpad b p hp), Finset.sum_comm]

end Cert.TileSums
-- ==== Proof.KernelLoss.lean ====
import proofs.«146163_j42640435314783_1_alg».proof.Proof.Accumulate
import proofs.«146163_j42640435314783_1_alg».proof.Proof.Arrays
import proofs.«146163_j42640435314783_1_alg».proof.Proof.TileSums
import proofs.«146163_j42640435314783_1_alg».proof.Proof.Spec
import Idealize.ShloMosaic.Lib.Affine

/-!
  The kernel's two totals are the specification's.

  The bank axis of true length 100000 is padded to 49 · 2048 places: the padded rows of the bank are anything, the
  padded labels and cameras are −1. A pair (row b, place k)'s term is the masked weight with the label and the
  bank row read through that padding; at a padded place the positive mask compares −1 with row b's label and the
  negative mask compares −1 with row b's camera, so both terms vanish as soon as no label and no camera of the 256
  rows is −1 — which the precondition gives (they are all non-negative). The accumulators after the last point are
  then the double sums over the 256 rows and the 100000 true places: the specification's two totals.
-/

noncomputable section

namespace Cert.KernelIdeal.KernelLoss

open Cert.KernelIdeal Cert.KernelIdeal.Gen Cert.KernelIdeal.Accumulate
open Idealize.ShloMosaic Idealize.ShloMosaic.TcCoe Idealize.ShloMosaic.ValueIdx Idealize.SL.Sem

variable (m : (ℓ : Loc nD τ sig) → Buf (Elt Ideal) ℓ) (c : Dev nD)

/-- The arrays the specification is stated over: the normalised rows, the bank, the rows' labels and cameras, the
    bank's labels and cameras. -/
abbrev X : Cert.Spec.SX.Idx → EReal := Cert.ReferenceIdeal.Read.val_main_v4 (F := Ideal) (m ((c : Thread nD τ).loc main_arg0))
abbrev feat : Cert.Spec.SF.Idx → EReal := m ((c : Thread nD τ).loc main_arg1)
abbrev tg : Cert.Spec.SB.Idx → BitVec 32 := m ((c : Thread nD τ).loc main_arg2)
abbrev cam : Cert.Spec.SB.Idx → BitVec 32 := m ((c : Thread nD τ).loc main_arg3)
abbrev pid : Cert.Spec.SN.Idx → BitVec 32 := m ((c : Thread nD τ).loc main_arg4)
abbrev cid : Cert.Spec.SN.Idx → BitVec 32 := m ((c : Thread nD τ).loc main_arg5)

/-- The bank's labels, cameras and rows read through the padding. -/
def pidP (k : ℕ) : BitVec 32 := if h : k < 100000 then pid m c (ix1 ⟨k, h⟩) else 4294967295#32
def cidP (k : ℕ) : BitVec 32 := if h : k < 100000 then cid m c (ix1 ⟨k, h⟩) else 4294967295#32
def featP (k : ℕ) (d : Fin 256) : EReal := if h : k < 100000 then feat m c (ix2 ⟨k, h⟩ d) else 0

/-- The pair (b, k)'s positive and negative terms over the padded place axis. -/
def termP (b : Fin 256) (k : Fin (49 * 2048)) : EReal :=
  Scalar.select (IntOp.cmpi .eq (pidP m c k.val) (tg m c (ix1 b)))
    (Cert.Spec.wPos (Cert.Spec.unit (∑ d : Fin 256, X m c (ix2 b d) * featP m c k.val d))) 0
def termN (b : Fin 256) (k : Fin (49 * 2048)) : EReal :=
  Scalar.select (IntOp.andi (~~~ (IntOp.cmpi .eq (pidP m c k.val) (tg m c (ix1 b)))) (IntOp.cmpi .eq (cidP m c k.val) (cam m c (ix1 b))))
    (Cert.Spec.wNeg (Cert.Spec.unit (∑ d : Fin 256, X m c (ix2 b d) * featP m c k.val d))) 0

/-- A comparison of the padding value with anything else is false. -/
theorem pad_ne {v : BitVec 32} (hv : v ≠ 4294967295#32) : IntOp.cmpi .eq (4294967295#32 : BitVec 32) v = 0#1 :=
  eq_zero_of_ne_one fun h => hv (IntOp.cmpi_eq.mp h).symm

theorem andi_zero (x : BitVec 1) : IntOp.andi x 0#1 = 0#1 := by revert x; decide

variable (hlab : ∀ b : Fin 256, tg m c (ix1 b) ≠ 4294967295#32 ∧ cam m c (ix1 b) ≠ 4294967295#32)
include hlab

/-- At a padded place both terms vanish. -/
theorem termP_pad (b : Fin 256) (k : Fin (49 * 2048)) (hk : 100000 ≤ k.val) : termP m c b k = 0 := by
  unfold termP pidP
  rw [dif_neg (by omega), pad_ne (hlab b).1, select_zero]
theorem termN_pad (b : Fin 256) (k : Fin (49 * 2048)) (hk : 100000 ≤ k.val) : termN m c b k = 0 := by
  unfold termN cidP
  rw [dif_neg (by omega), pad_ne (hlab b).2, andi_zero, select_zero]

/-- Tile t's positive total is the sum of the pairs' terms over its 2048 places. -/
theorem tilePos_eq (t : Fin cfg0.N) (ht : t.val < 49) :
    tilePos m c t = ∑ b : Fin 256, ∑ j : Fin 2048, termP m c b ⟨2048 * t.val + j.val, LibChunks.place_lt ht j⟩ := by
  unfold tilePos
  refine Finset.sum_congr rfl fun b _ => Finset.sum_congr rfl fun j _ => ?_
  simp only [labels, bankLabels, rows, bank]
  rw [Cert.Arrays.blk_tg m c t b]
  by_cases hk : 2048 * t.val + j.val < 100000
  · rw [(Cert.Arrays.blk_pid m c t j).1 hk]
    unfold termP pidP
    rw [dif_pos hk]
    refine congrArg (fun s => Scalar.select _ (Cert.Spec.wPos (Cert.Spec.unit s)) 0) ?_
    refine Finset.sum_congr rfl fun d _ => ?_
    rw [Cert.Arrays.blk_x m c t b d, Cert.Arrays.blk_f m c t j d hk]
    unfold featP
    rw [dif_pos hk]
  · rw [(Cert.Arrays.blk_pid m c t j).2 (by omega), pad_ne (hlab b).1, select_zero]
    exact (termP_pad m c hlab b _ (by show 100000 ≤ 2048 * t.val + j.val; omega)).symm

/-- Tile t's negative total is the sum of the pairs' terms over its 2048 places. -/
theorem tileNeg_eq (t : Fin cfg0.N) (ht : t.val < 49) :
    tileNeg m c t = ∑ b : Fin 256, ∑ j : Fin 2048, termN m c b ⟨2048 * t.val + j.val, LibChunks.place_lt ht j⟩ := by
  unfold tileNeg
  refine Finset.sum_congr rfl fun b _ => Finset.sum_congr rfl fun j _ => ?_
  simp only [labels, bankLabels, cameras, bankCameras, rows, bank]
  rw [Cert.Arrays.blk_tg m c t b, Cert.Arrays.blk_cam m c t b]
  by_cases hk : 2048 * t.val + j.val < 100000
  · rw [(Cert.Arrays.blk_pid m c t j).1 hk, (Cert.Arrays.blk_cid m c t j).1 hk]
    unfold termN pidP cidP
    rw [dif_pos hk, dif_pos hk]
    refine congrArg (fun s => Scalar.select _ (Cert.Spec.wNeg (Cert.Spec.unit s)) 0) ?_
    refine Finset.sum_congr rfl fun d _ => ?_
    rw [Cert.Arrays.blk_x m c t b d, Cert.Arrays.blk_f m c t j d hk]
    unfold featP
    rw [dif_pos hk]
  · rw [(Cert.Arrays.blk_cid m c t j).2 (by omega), pad_ne (hlab b).2, andi_zero, select_zero]
    exact (termN_pad m c hlab b _ (by show 100000 ≤ 2048 * t.val + j.val; omega)).symm

/-- The positive accumulator after the last point is the specification's positive total. -/
theorem pos_total : posAfter m c 48 = Cert.Spec.posSum (X m c) (feat m c) (tg m c) (pid m c) := by
  have key := Cert.TileSums.total_of_tiles 256 49 2048 100000 (by norm_num) (termP m c)
    (fun n => if n = 0 then 0 else posAfter m c (n - 1)) (if_pos rfl)
    (fun t h => by
      show (if t + 1 = 0 then 0 else posAfter m c (t + 1 - 1)) = (if t = 0 then 0 else posAfter m c (t - 1)) + _
      rw [if_neg (Nat.succ_ne_zero t), Nat.add_sub_cancel]
      exact (pos_step m c ⟨t, lt_of_lt_of_eq h N_0.symm⟩).trans
        (congrArg (_ + ·) (tilePos_eq m c hlab ⟨t, lt_of_lt_of_eq h N_0.symm⟩ h)))
    (termP_pad m c hlab)
  have h49 : (if (49 : ℕ) = 0 then (0 : EReal) else posAfter m c (49 - 1)) = posAfter m c 48 := if_neg (by decide)
  refine h49.symm.trans (key.trans ?_)
  unfold Cert.Spec.posSum
  refine Finset.sum_congr rfl fun b _ => Finset.sum_congr rfl fun q _ => ?_
  have e1 : pidP m c q.val = pid m c (ix1 q) := dif_pos q.isLt
  have e2 : ∀ d, featP m c q.val d = feat m c (ix2 q d) := fun d => dif_pos q.isLt
  unfold termP Cert.Spec.posTerm Cert.Spec.posMask Cert.Spec.sim
  rw [Fin.coe_castLE, e1]
  simp only [e2]

/-- The negative accumulator after the last point is the specification's negative total. -/
theorem neg_total : negAfter m c 48 = Cert.Spec.negSum (X m c) (feat m c) (tg m c) (cam m c) (pid m c) (cid m c) := by
  have key := Cert.TileSums.total_of_tiles 256 49 2048 100000 (by norm_num) (termN m c)
    (fun n => if n = 0 then 0 else negAfter m c (n - 1)) (if_pos rfl)
    (fun t h => by
      show (if t + 1 = 0 then 0 else negAfter m c (t + 1 - 1)) = (if t = 0 then 0 else negAfter m c (t - 1)) + _
      rw [if_neg (Nat.succ_ne_zero t), Nat.add_sub_cancel]
      exact (neg_step m c ⟨t, lt_of_lt_of_eq h N_0.symm⟩).trans
        (congrArg (_ + ·) (tileNeg_eq m c hlab ⟨t, lt_of_lt_of_eq h N_0.symm⟩ h)))
    (termN_pad m c hlab)
  have h49 : (if (49 : ℕ) = 0 then (0 : EReal) else negAfter m c (49 - 1)) = negAfter m c 48 := if_neg (by decide)
  refine h49.symm.trans (key.trans ?_)
  unfold Cert.Spec.negSum
  refine Finset.sum_congr rfl fun b _ => Finset.sum_congr rfl fun q _ => ?_
  have e1 : pidP m c q.val = pid m c (ix1 q) := dif_pos q.isLt
  have e3 : cidP m c q.val = cid m c (ix1 q) := dif_pos q.isLt
  have e2 : ∀ d, featP m c q.val d = feat m c (ix2 q d) := fun d => dif_pos q.isLt
  unfold termN Cert.Spec.negTerm Cert.Spec.negMask Cert.Spec.posMask Cert.Spec.sim
  rw [Fin.coe_castLE, e1, e3]
  simp only [e2]

/-- So the output block at the last point holds the specification's loss. -/
theorem out_value (h : 48 < cfg0.N) :
    ((outsAt0 m c 48 h).1 : Vec Ideal S1x1 .f32) (ix2 0 0)
      = Cert.Spec.loss (X m c) (feat m c) (tg m c) (cam m c) (pid m c) (cid m c) := by
  rw [out_last m c h, pos_total m c hlab, neg_total m c hlab]
  unfold Cert.Spec.loss
  rfl

end Cert.KernelIdeal.KernelLoss

end
-- ==== Proof.KernelRun.lean ====
/-
  The kernel program's run, read at its result.

  The grid has 49 points; the output window holds one 1×1 block whose index never moves, stored and written back at the
  last point only, and one reshape after the region turns that 1×1 array into the rank-0 result.  So if `R c` is
  the one entry the body leaves in the output's staging buffer at the last point, the result ends holding `R c`, and
  the six argument arrays end as launched.
-/
import proofs.«146163_j42640435314783_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.KernelRun

open Cert.KernelIdeal Cert.KernelIdeal.Gen

variable (m : (ℓ : Loc nD τ sig) → Buf (Elt Ideal) ℓ) (ρ : Dev nD → PrngReg) (R : Dev nD → EReal)

theorem lastLt : 48 < cfg0.N := by rw [show cfg0.N = 49 from N_0]; decide

/-- The last grid point. -/
abbrev tLast : Fin cfg0.N := ⟨48, lastLt⟩

/-- The 1×1 array every entry of which is `R c`. -/
abbrev res (c : Dev nD) : Buf (Elt Ideal) ((c : Thread nD τ).loc main_v12) := fun _ => R c

/-- A 1×1 index set has one index. -/
theorem idx11 (y : S1x1.Idx) : y = ValueIdx.ix2 0 0 := by
  funext a
  match a with
  | ⟨0, _⟩ => exact Fin.ext (by have := ValueIdx.idx2_lt0 y; show (y 0).val = 0; omega)
  | ⟨1, _⟩ => exact Fin.ext (by have := ValueIdx.idx2_lt1 y; show (y 1).val = 0; omega)

/-- A 1×1 array is constant at its one entry. -/
theorem const_of_entry (X : S1x1.Idx → EReal) (r : EReal) (h : X (ValueIdx.ix2 0 0) = r) : X = fun _ => r :=
  funext fun y => by rw [idx11 y]; exact h

/-- The output block's offsets at the last point are zero. -/
theorem zero_off : (fun a => win0_6.index tLast a * main_v12.ty.shape.size a) = fun _ => 0 :=
  funext fun a => by fin_cases a <;> decide

variable (hR : ∀ c : Dev nD, ((outsAt0 m c 48 lastLt).1 : Vec Ideal S1x1 .f32) (ValueIdx.ix2 0 0) = R c)

include hR in
/-- The one write-back, at the last point, writes the constant block. -/
theorem flushed_eq (c : Dev nD) (t : Fin cfg0.N) (hf : (cfg0.win 6).flush t = true) :
    (dats m 0 c).flushed 6 t = ((cfg0.win 6).blk t).view.read (Elt Ideal) (res R c) := by
  have hN : cfg0.N = 49 := N_0
  have h48 : t.val = 48 := by have := (flush0_6 t).mp hf; have := t.isLt; omega
  obtain rfl : t = tLast := Fin.ext h48
  show (cfg0.win 6).cut (grid0.coords tLast) ((dats m 0 c).after 6 tLast) = _
  rw [after0_6, show outsAt0 m c tLast.val tLast.isLt = outsAt0 m c 48 lastLt from rfl]
  have h1 := hR c
  generalize outsAt0 m c 48 lastLt = p at h1 ⊢
  rw [const_of_entry p.1 (R c) h1]
  exact (Memref.read_access_unit_zero (Elt Ideal) main_v12 zero_off (fun a => by rw [congrFun zero_off a]; simp) (res R c)).symm

include hR in
/-- So the 1×1 output array ends holding the constant block: the last point's block is the whole array. -/
theorem final (c : Dev nD) : (dats m 0 c).arrAt 6 cfg0.N = res R c :=
  (dats m 0 c).arrAt_eq_of_cover 6 (res R c) (flushed_eq m R hR c) fun i =>
    ⟨tLast, (flush0_6 tLast).mpr rfl, by
      show i ∈ ((View.whole main_v12).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

include hR in
/-- The reshape after the region: the rank-0 result holds `R c`. -/
theorem tail_eq (c : Dev nD) :
    Pipeline.afterTail₀ cfgs (dats m) 0 (V0 m) [hostOps1] c main_v13 = fun _ => R c := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12) = res R c :=
    (Pipeline.withArrays_arr spec0 launch0.win.arr_inj c _ _ 6).trans (final m R hR c)
  rw [hw]
  rfl

include hR in
/-- THE KERNEL'S RUN, READ: the rank-0 result at `R c`, the six argument arrays as launched. -/
theorem kernel_run :
    θ_run defs (onTc (τ := τ) (main (F := Ideal))) ⟨m, fun _ => 0, ρ⟩ (fun r => ∀ c : Dev nD,
      r.2.mem ((c.tc : Thread nD τ).loc main_v13) = (fun _ => R c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v13 (Pipeline.mem_restRefs_of main_v13 (by decide) (by decide))).trans (tail_eq m R hR c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

omit hR in
/-- The same from the entry fact stated for every proof of `48 < 49` (so that no two spellings of that proof ever have
    to be compared through the accumulation's definition). -/
theorem kernel_run' (hR' : ∀ (c : Dev nD) (h : 48 < cfg0.N), ((outsAt0 m c 48 h).1 : Vec Ideal S1x1 .f32) (ValueIdx.ix2 0 0) = R c) :
    θ_run defs (onTc (τ := τ) (main (F := Ideal))) ⟨m, fun _ => 0, ρ⟩ (fun r => ∀ c : Dev nD,
      r.2.mem ((c.tc : Thread nD τ).loc main_v13) = (fun _ => R c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  kernel_run m ρ R fun c => hR' c lastLt

end Cert.KernelIdeal.KernelRun

end
-- ==== Proof.RefLoss.lean ====
/-
  The reference program's value is the loss of the shared specification.

  The reference computes, from the row-normalised inputs `x`, the mapped similarity of every pair (row, bank entry),
  the two label masks, the two weights, the two masked sums over all pairs, and the logarithm of one plus their
  product.  Read at one pair `(b, n)` every stage is the specification's function of the same name; the two sums over
  the rank-2 index set are the double sums over the coordinates; the only algebra is `0 − y = −y` (the reference
  negates where the specification subtracts from zero) and `0 + s = s` (the sums start from the word of zero).
-/
import proofs.«146163_j42640435314783_1_alg».proof.Proof.Gen.ReferenceIdeal.Read
import proofs.«146163_j42640435314783_1_alg».proof.Proof.Spec

noncomputable section

namespace Cert.RefLoss

open Idealize.ShloMosaic Idealize.ShloMosaic.ValueIdx Cert.ReferenceIdeal Cert.ReferenceIdeal.Read
open scoped BigOperators

/-- The arrays' types, as the reference's stages take them. -/
abbrev TX : Type := (⟨S256x256, .f32⟩ : BufTy).Contents (Elt Ideal)
abbrev TF : Type := (⟨S100000x256, .f32⟩ : BufTy).Contents (Elt Ideal)
abbrev TB : Type := (⟨S256, .i32⟩ : BufTy).Contents (Elt Ideal)
abbrev TN : Type := (⟨S100000, .i32⟩ : BufTy).Contents (Elt Ideal)

/-- Subtracting from the word of zero is negating. -/
theorem zero_word_sub (y : EReal) : Ideal.ofBits .f32 0x00000000#32 - y = -y := by
  rw [Ideal.ofBits_zero_f32, zero_sub]

/-! ## The index maps of the broadcasts, the transpose and the contraction, at a pair -/

theorem lidx_pair (b : Fin 256) (n : Fin 100000) (k : Fin 256) : lidx_main_v6 (ix2 b n) k = ix2 b k :=
  funext fun a => by match a with | ⟨0, _⟩ => rfl | ⟨1, _⟩ => rfl

theorem ridx_pair (b : Fin 256) (n : Fin 100000) (k : Fin 256) :
    idx_main_v5 (ridx_main_v6 (ix2 b n) k) = ix2 n k :=
  funext fun a => by match a with | ⟨0, _⟩ => rfl | ⟨1, _⟩ => rfl

theorem pid_pair (b : Fin 256) (n : Fin 100000) : idx_main_v11 (idx_main_v13 (ix2 b n)) = ix1 n :=
  funext fun a => by match a with | ⟨0, _⟩ => rfl

theorem tg_pair (b : Fin 256) (n : Fin 100000) : idx_main_v12 (idx_main_v14 (ix2 b n)) = ix1 b :=
  funext fun a => by match a with | ⟨0, _⟩ => rfl

theorem cid_pair (b : Fin 256) (n : Fin 100000) : idx_main_v17 (idx_main_v19 (ix2 b n)) = ix1 n :=
  funext fun a => by match a with | ⟨0, _⟩ => rfl

theorem cam_pair (b : Fin 256) (n : Fin 100000) : idx_main_v18 (idx_main_v20 (ix2 b n)) = ix1 b :=
  funext fun a => by match a with | ⟨0, _⟩ => rfl

/-! ## The mapped similarity at a pair -/

/-- The contraction at `(b, n)` is the specification's similarity, for any left operand. -/
theorem dot_ref (x : TX) (x1 : TF) (b : Fin 256) (n : Fin 100000) :
    (∑ k : Fin 256, x (lidx_main_v6 (ix2 b n) k) * (val_main_v5 (F := Ideal) x1) (ridx_main_v6 (ix2 b n) k))
      = Spec.sim x x1 b n := by
  unfold Spec.sim
  refine Finset.sum_congr rfl fun k _ => ?_
  rw [val_main_v5_apply, lidx_pair, ridx_pair]

/-- Stage 10 at `(b, n)`: the similarity mapped to the unit interval. -/
theorem unit_ref (x0 : TX) (x1 : TF) (b : Fin 256) (n : Fin 100000) :
    val_main_v10 (F := Ideal) x0 x1 (ix2 b n) = Spec.unit (Spec.sim (val_main_v4 (F := Ideal) x0) x1 b n) := by
  rw [val_main_v10_apply, val_main_v8_apply, val_main_v6_apply, val_main_v7_apply, val_main_v9_apply,
    val_main_cst_0_apply, val_main_cst_1_apply]
  generalize val_main_v4 (F := Ideal) x0 = x
  rw [dot_ref]
  rfl

/-! ## The masks at a pair -/

theorem posMask_ref (x2 : TB) (x4 : TN) (b : Fin 256) (n : Fin 100000) :
    val_main_v15 (F := Ideal) x2 x4 (ix2 b n) = Spec.posMask x2 x4 b n := by
  rw [val_main_v15_apply, val_main_v13_apply, val_main_v11_apply, val_main_v14_apply, val_main_v12_apply,
    pid_pair, tg_pair]
  rfl

theorem negMask_ref (x2 x3 : TB) (x4 x5 : TN) (b : Fin 256) (n : Fin 100000) :
    val_main_v22 (F := Ideal) x2 x3 x4 x5 (ix2 b n) = Spec.negMask x2 x3 x4 x5 b n := by
  rw [val_main_v22_apply, val_main_v16_apply, posMask_ref, val_main_v21_apply, val_main_v19_apply,
    val_main_v17_apply, val_main_v20_apply, val_main_v18_apply, cid_pair, cam_pair]
  rfl

/-! ## The two terms at a pair -/

/-- Stage 36 at `(b, n)` is the pair's term of the positive sum. -/
theorem posTerm_ref (x0 : TX) (x1 : TF) (x2 : TB) (x4 : TN) (b : Fin 256) (n : Fin 100000) :
    val_main_v36 (F := Ideal) x0 x1 x2 x4 (ix2 b n)
      = Spec.posTerm (val_main_v4 (F := Ideal) x0) x1 x2 x4 b n := by
  rw [val_main_v36_apply, posMask_ref, val_main_v35_apply, val_main_v34_apply, val_main_v32_apply,
    val_main_v29_apply, val_main_v26_apply, val_main_v24_apply, val_main_v23_apply, val_main_cst_2_apply,
    val_main_v25_apply, val_main_cst_3_apply, val_main_v31_apply, val_main_v30_apply, val_main_cst_5_apply,
    val_main_v33_apply, val_main_cst_6_apply, val_main_call1_v1_apply, val_main_call1_v0_apply,
    val_main_cst_7_apply, unit_ref]
  unfold Spec.posTerm Spec.wPos
  generalize Spec.unit (Spec.sim (val_main_v4 (F := Ideal) x0) x1 b n) = o
  rw [zero_word_sub]
  simp only [Ideal.ofBits_def, Ideal.ofBits_zero_f32]
  rfl

/-- Stage 42 at `(b, n)` is the pair's term of the negative sum. -/
theorem negTerm_ref (x0 : TX) (x1 : TF) (x2 x3 : TB) (x4 x5 : TN) (b : Fin 256) (n : Fin 100000) :
    val_main_v42 (F := Ideal) x0 x1 x2 x3 x4 x5 (ix2 b n)
      = Spec.negTerm (val_main_v4 (F := Ideal) x0) x1 x2 x3 x4 x5 b n := by
  rw [val_main_v42_apply, negMask_ref, val_main_v41_apply, val_main_v40_apply, val_main_v38_apply,
    val_main_v28_apply, val_main_v27_apply, val_main_cst_4_apply, val_main_v39_apply, val_main_cst_9_apply,
    val_main_call2_v1_apply, val_main_call2_v0_apply, val_main_cst_10_apply, unit_ref]
  unfold Spec.negTerm Spec.wNeg
  generalize Spec.unit (Spec.sim (val_main_v4 (F := Ideal) x0) x1 b n) = o
  simp only [Ideal.ofBits_def, Ideal.ofBits_zero_f32]
  rfl

/-! ## The two sums -/

theorem posSum_ref (x0 : TX) (x1 : TF) (x2 : TB) (x4 : TN) (i : S_.Idx) :
    val_main_v37 (F := Ideal) x0 x1 x2 x4 i = Spec.posSum (val_main_v4 (F := Ideal) x0) x1 x2 x4 := by
  rw [val_main_v37_apply, val_main_cst_8_apply, Ideal.ofBits_def, Ideal.ofBits_zero_f32, zero_add]
  refine (sum_idx2 (n0 := 256) (n1 := 100000) _).trans ?_
  unfold Spec.posSum
  exact Finset.sum_congr rfl fun b _ => Finset.sum_congr rfl fun n _ => posTerm_ref x0 x1 x2 x4 b n

theorem negSum_ref (x0 : TX) (x1 : TF) (x2 x3 : TB) (x4 x5 : TN) (i : S_.Idx) :
    val_main_v43 (F := Ideal) x0 x1 x2 x3 x4 x5 i
      = Spec.negSum (val_main_v4 (F := Ideal) x0) x1 x2 x3 x4 x5 := by
  rw [val_main_v43_apply, val_main_cst_11_apply, Ideal.ofBits_def, Ideal.ofBits_zero_f32, zero_add]
  refine (sum_idx2 (n0 := 256) (n1 := 100000) _).trans ?_
  unfold Spec.negSum
  exact Finset.sum_congr rfl fun b _ => Finset.sum_congr rfl fun n _ => negTerm_ref x0 x1 x2 x3 x4 x5 b n

/-! ## The reference's value -/

/-- THE REFERENCE'S VALUE: the loss of the specification at the normalised inputs. -/
theorem ref_loss (x0 : (⟨S256x256, .f32⟩ : BufTy).Contents (Elt Ideal))
    (x1 : (⟨S100000x256, .f32⟩ : BufTy).Contents (Elt Ideal))
    (x2 x3 : (⟨S256, .i32⟩ : BufTy).Contents (Elt Ideal))
    (x4 x5 : (⟨S100000, .i32⟩ : BufTy).Contents (Elt Ideal)) :
    Cert.ReferenceIdeal.Read.val_main_v45 (F := Ideal) x0 x1 x2 x3 x4 x5
      = fun _ => Cert.Spec.loss (Cert.ReferenceIdeal.Read.val_main_v4 (F := Ideal) x0) x1 x2 x3 x4 x5 := by
  funext i
  rw [val_main_v45_apply, val_main_v44_apply, posSum_ref, negSum_ref]
  unfold Spec.loss
  generalize Spec.posSum (val_main_v4 (F := Ideal) x0) x1 x2 x4 = P
  generalize Spec.negSum (val_main_v4 (F := Ideal) x0) x1 x2 x3 x4 x5 = N
  rfl

end Cert.RefLoss

end
-- ==== Proof.lean ====
/-
  The camera-memory loss: the tiled kernel against the plain reference, on the extended reals.

  Both programs normalise the 256 input rows on the host by the same operations, map each row's similarity with each
  of the 100000 bank entries from [-1, 1] to [0, 1], weigh the positive pairs (the entry carries the row's label) by
  exp (−max (1 − o) 0 · (o − 1) / T) and the camera-negative pairs (another label, the row's camera) by
  exp (max o 0 · o / T), total both kinds over all pairs and return log (1 + P · N).

  The reference takes the two totals in one sum each. The kernel pads the bank axis to 49 tiles of 2048 entries — the
  bank's rows with zeros, the entries' labels and cameras with −1 — and walks the tiles, keeping the two totals in two
  one-entry accumulators it clears at the first tile, and writes log (1 + P · N) out at the last. Over the extended
  reals addition is commutative and associative without any finiteness, so the tile-by-tile totals are the one-sum
  totals as soon as the padded pairs contribute nothing; a padded pair contributes nothing as soon as no row's label
  and no row's camera is −1, which the precondition (labels and cameras non-negative) gives. No finiteness of the
  float inputs is used.

  The modules: Spec (the loss as one function of the arrays), TileSums (the tiled, padded double sum), Pieces (what the
  body leaves at a grid point, case by case), TileTerms (the body's arithmetic at an index), Accumulate (the two
  accumulators point by point), Arrays (what the kernel's windows find: the padded arrays and their blocks), Labels
  (no label or camera of a row is −1), KernelLoss (the kernel's totals are the specification's), KernelRun (the run,
  the write-back at the last point and the reshape after it), RefLoss (the reference's result is the specification's
  loss); here the five claims are assembled.
-/
import proofs.«146163_j42640435314783_1_alg».proof.Defs
import proofs.«146163_j42640435314783_1_alg».proof.Proof.Gen.Kernel
import proofs.«146163_j42640435314783_1_alg».proof.Proof.Gen.Kernel.Skeleton
import proofs.«146163_j42640435314783_1_alg».proof.Proof.Gen.Kernel.Launch
import proofs.«146163_j42640435314783_1_alg».proof.Proof.Gen.Kernel.Points
import proofs.«146163_j42640435314783_1_alg».proof.Proof.Gen.Kernel.Frame
import proofs.«146163_j42640435314783_1_alg».proof.Proof.Gen.KernelIdeal
import proofs.«146163_j42640435314783_1_alg».proof.Proof.Gen.KernelIdeal.Skeleton
import proofs.«146163_j42640435314783_1_alg».proof.Proof.Gen.KernelIdeal.Launch
import proofs.«146163_j42640435314783_1_alg».proof.Proof.Gen.KernelIdeal.Points
import proofs.«146163_j42640435314783_1_alg».proof.Proof.Gen.KernelIdeal.Frame
import proofs.«146163_j42640435314783_1_alg».proof.Proof.Gen.ReferenceIdeal
import proofs.«146163_j42640435314783_1_alg».proof.Proof.Gen.ReferenceIdeal.Run
import proofs.«146163_j42640435314783_1_alg».proof.Proof.Gen.ReferenceIdeal.Read
import proofs.«146163_j42640435314783_1_alg».proof.Proof.Gen.Pre_finite_inputs
import proofs.«146163_j42640435314783_1_alg».proof.Proof.Labels
import proofs.«146163_j42640435314783_1_alg».proof.Proof.KernelLoss
import proofs.«146163_j42640435314783_1_alg».proof.Proof.KernelRun
import proofs.«146163_j42640435314783_1_alg».proof.Proof.RefLoss
import Idealize.ShloMosaic.Adequacy
import Idealize.ShloMosaic.Init

noncomputable section

namespace Cert.Proof

open Idealize.ShloMosaic Idealize.SL.Sem

/-- The three programs run, fault-free, and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition both idealized programs end at the specification's loss of the arguments they agree on. -/
theorem algebraic : Cert.algebraic_KernelIdeal_ReferenceIdeal := by
  intro m ρ m' ρ' hpre hagree
  have hlab := fun c => Cert.Labels.labels_of_pre _ _ _ _ _ _ (hpre c)
  refine ⟨fun c _ => Cert.Spec.loss (Cert.KernelIdeal.KernelLoss.X m c) (Cert.KernelIdeal.KernelLoss.feat m c)
      (Cert.KernelIdeal.KernelLoss.tg m c) (Cert.KernelIdeal.KernelLoss.cam m c) (Cert.KernelIdeal.KernelLoss.pid m c)
      (Cert.KernelIdeal.KernelLoss.cid m c),
    Cert.KernelIdeal.KernelRun.kernel_run' m ρ _ (fun c h => Cert.KernelIdeal.KernelLoss.out_value m c (hlab c) h), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v45_eq, Cert.RefLoss.ref_loss, (hagree c).1, (hagree c).2.1,
    (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
